-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4 : Shape := ⟨3, ![8, 1024, 4]⟩
abbrev S8x1024 : Shape := ⟨2, ![8, 1024]⟩
abbrev S_ : Shape := ⟨0, ![]⟩

class Facts : Prop where
  reducesTo_S_S_d : S_.ReducesTo [] S_
  h_S_ : 0 < S_.numel

variable [Facts]

def fn {F : FTy → Type} [FloatOps F] (main_arg0 : IVec S8x1024x4 32) (main_arg1 : IVec S8x1024x4 32) (main_arg2 : IVec S8x1024 32) (main_arg3 : FVec F S_ .f32) : IVec S_ 1 :=
  let main_v0 : FVec F S_ .f32 := Host.absf main_arg3
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_cst_0 : FVec F S_ .f32 := constant S_ .f32 0x00000000#32
  let main_v3 : IVec S_ 1 := cmpf .oge main_arg3 main_cst_0
  let main_c_1 : IVec S_ 1 := constantI S_ 1 1#1
  let main_v4 : IVec S_ 1 := (fun x v => Host.reduce IntOp.andi x v reducesTo_S_S_d h_S_) main_v3 main_c_1
  let main_v5 : IVec S_ 1 := andi main_v2 main_v4
  main_v5
-- ==== Kernel.lean ====
abbrev S8x1024x4 : Shape := ⟨3, ![8, 1024, 4]⟩
abbrev S8x1024 : Shape := ⟨2, ![8, 1024]⟩
abbrev S_ : Shape := ⟨0, ![]⟩
abbrev S8x1024x1 : Shape := ⟨3, ![8, 1024, 1]⟩
abbrev S8x1024x1024 : Shape := ⟨3, ![8, 1024, 1024]⟩
abbrev S1x512x4 : Shape := ⟨3, ![1, 512, 4]⟩
abbrev S1x512x1 : Shape := ⟨3, ![1, 512, 1]⟩
abbrev S1x512x512 : Shape := ⟨3, ![1, 512, 512]⟩
abbrev S512x512 : Shape := ⟨2, ![512, 512]⟩
abbrev S512x4 : Shape := ⟨2, ![512, 4]⟩
abbrev S512x1 : Shape := ⟨2, ![512, 1]⟩
abbrev S512 : Shape := ⟨1, ![512]⟩
abbrev S1x512 : Shape := ⟨2, ![1, 512]⟩

abbrev nBuf : Space → Nat
  | .hbm => 12
  | .vmem => 14
  | .smem => 0
  | _ => 0

abbrev bufTy : (tb : Table) → Fin (tcTables nBuf tb) → BufTy
  | .hbm, ⟨0, _⟩ => ⟨S8x1024x4, .i32⟩
  | .hbm, ⟨1, _⟩ => ⟨S8x1024x4, .i32⟩
  | .hbm, ⟨2, _⟩ => ⟨S8x1024, .i32⟩
  | .hbm, ⟨3, _⟩ => ⟨S_, .f32⟩
  | .hbm, ⟨4, _⟩ => ⟨S_, .i32⟩
  | .hbm, ⟨5, _⟩ => ⟨S8x1024, .i32⟩
  | .hbm, ⟨6, _⟩ => ⟨S8x1024, .i1⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024x1, .f32⟩
  | .hbm, ⟨11, _⟩ => ⟨S8x1024x1024, .f32⟩
  | .local _ .vmem, ⟨0, _⟩ => ⟨S1x512x4, .i32⟩
  | .local _ .vmem, ⟨1, _⟩ => ⟨S1x512x4, .i32⟩
  | .local _ .vmem, ⟨2, _⟩ => ⟨S1x512x4, .i32⟩
  | .local _ .vmem, ⟨3, _⟩ => ⟨S1x512x4, .i32⟩
  | .local _ .vmem, ⟨4, _⟩ => ⟨S1x512x4, .i32⟩
  | .local _ .vmem, ⟨5, _⟩ => ⟨S1x512x4, .i32⟩
  | .local _ .vmem, ⟨6, _⟩ => ⟨S1x512x4, .i32⟩
  | .local _ .vmem, ⟨7, _⟩ => ⟨S1x512x4, .i32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x512, .f32⟩
  | .local _ .vmem, ⟨13, _⟩ => ⟨S1x512x512, .f32⟩
  | _, _ => ⟨S8x1024x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  iota_S512x512_d1_w32 : S512x512.Iotas .tc 32 [1]
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  slices_S512x4_o0_0_S512x1 : S512x4.Slices ![0, 0] S512x1
  broadcasts_S512x1_S512x512 : S512x1.Broadcasts S512x512
  natLt_1_32 : 1 < 32
  slices_S512x4_o0_1_S512x1 : S512x4.Slices ![0, 1] S512x1
  slices_S512x4_o0_2_S512x1 : S512x4.Slices ![0, 2] S512x1
  slices_S512x4_o0_3_S512x1 : S512x4.Slices ![0, 3] S512x1
  reduces_S512x512_S512 : S512x512.Reduces [1] S512
  shapeCasts_S512_S512x1 : S512.ShapeCasts S512x1
  bitsLt_bf16_f32 : FTy.bits .bf16 < FTy.bits .f32
  transposes_S512x512_p1_0_S512x512 : S512x512.Transposes [1, 0] S512x512
  transposes_S512x1_p1_0_S1x512 : S512x1.Transposes [1, 0] S1x512
  broadcasts_S1x512_S512x512 : S1x512.Broadcasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4.size a ≤ S8x1024x4.size a
  hwx0_0 : ∀ i : grid0.Coords, EltTy.bits .i32 = 32 ∨ (Rect.block (s := S8x1024x4) S1x512x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4.size a ≤ S8x1024x4.size a
  hwx0_1 : ∀ i : grid0.Coords, EltTy.bits .i32 = 32 ∨ (Rect.block (s := S8x1024x4) S1x512x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4.size a ≤ S8x1024x4.size a
  hwx0_2 : ∀ i : grid0.Coords, EltTy.bits .i32 = 32 ∨ (Rect.block (s := S8x1024x4) S1x512x4.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4.size a ≤ S8x1024x4.size a
  hwx0_3 : ∀ i : grid0.Coords, EltTy.bits .i32 = 32 ∨ (Rect.block (s := S8x1024x4) S1x512x4.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S8x1024x1.size a
  hwx0_4 : ∀ i : grid0.Coords, EltTy.bits .f32 = 32 ∨ (Rect.block (s := S8x1024x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S8x1024x1.size a
  hwx0_5 : ∀ i : grid0.Coords, EltTy.bits .f32 = 32 ∨ (Rect.block (s := S8x1024x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S8x1024x1024.size a
  hwx0_6 : ∀ i : grid0.Coords, EltTy.bits .f32 = 32 ∨ (Rect.block (s := S8x1024x1024) S1x512x512.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x1024x4 : Shape := ⟨3, ![8, 1024, 4]⟩
abbrev S8x1024 : Shape := ⟨2, ![8, 1024]⟩
abbrev S_ : Shape := ⟨0, ![]⟩
abbrev S8x1024x4x1 : Shape := ⟨4, ![8, 1024, 4, 1]⟩
abbrev S1x1x1x513 : Shape := ⟨4, ![1, 1, 1, 513]⟩
abbrev S8x1024x4x513 : Shape := ⟨4, ![8, 1024, 4, 513]⟩
abbrev S8x1024x513 : Shape := ⟨3, ![8, 1024, 513]⟩
abbrev S8x1024x512 : Shape := ⟨3, ![8, 1024, 512]⟩
abbrev S8x1024x1024 : Shape := ⟨3, ![8, 1024, 1024]⟩
abbrev S8x1024x1 : Shape := ⟨3, ![8, 1024, 1]⟩
abbrev S8x1x1024 : Shape := ⟨3, ![8, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x1024x4, .i32⟩
  | .hbm, ⟨1, _⟩ => ⟨S8x1024x4, .i32⟩
  | .hbm, ⟨2, _⟩ => ⟨S8x1024, .i32⟩
  | .hbm, ⟨3, _⟩ => ⟨S_, .f32⟩
  | .hbm, ⟨4, _⟩ => ⟨S8x1024x4x1, .i32⟩
  | .hbm, ⟨5, _⟩ => ⟨S1x1x1x513, .i32⟩
  | .hbm, ⟨6, _⟩ => ⟨S8x1024x4x513, .i32⟩
  | .hbm, ⟨7, _⟩ => ⟨S8x1024x4x513, .i32⟩
  | .hbm, ⟨8, _⟩ => ⟨S8x1024x4x513, .i1⟩
  | .hbm, ⟨9, _⟩ => ⟨S8x1024x4x513, .f32⟩
  | .hbm, ⟨10, _⟩ => ⟨S_, .f32⟩
  | .hbm, ⟨11, _⟩ => ⟨S8x1024x513, .f32⟩
  | .hbm, ⟨12, _⟩ => ⟨S8x1024x512, .f32⟩
  | .hbm, ⟨13, _⟩ => ⟨S8x1024x4x1, .i32⟩
  | .hbm, ⟨14, _⟩ => ⟨S1x1x1x513, .i32⟩
  | .hbm, ⟨15, _⟩ => ⟨S8x1024x4x513, .i32⟩
  | .hbm, ⟨16, _⟩ => ⟨S8x1024x4x513, .i32⟩
  | .hbm, ⟨17, _⟩ => ⟨S8x1024x4x513, .i1⟩
  | .hbm, ⟨18, _⟩ => ⟨S8x1024x4x513, .f32⟩
  | .hbm, ⟨19, _⟩ => ⟨S_, .f32⟩
  | .hbm, ⟨20, _⟩ => ⟨S8x1024x513, .f32⟩
  | .hbm, ⟨21, _⟩ => ⟨S8x1024x512, .f32⟩
  | .hbm, ⟨22, _⟩ => ⟨S_, .f32⟩
  | .hbm, ⟨23, _⟩ => ⟨S8x1024, .f32⟩
  | .hbm, ⟨24, _⟩ => ⟨S8x1024x1024, .f32⟩
  | .hbm, ⟨25, _⟩ => ⟨S8x1024x1, .f32⟩
  | .hbm, ⟨26, _⟩ => ⟨S8x1x1024, .f32⟩
  | .hbm, ⟨27, _⟩ => ⟨S8x1024x1024, .f32⟩
  | .hbm, ⟨28, _⟩ => ⟨S8x1024x1024, .f32⟩
  | .hbm, ⟨29, _⟩ => ⟨S8x1024x1024, .f32⟩
  | .hbm, ⟨30, _⟩ => ⟨S_, .f32⟩
  | .hbm, ⟨31, _⟩ => ⟨S8x1024x1024, .f32⟩
  | .hbm, ⟨32, _⟩ => ⟨S8x1024x1024, .f32⟩
  | .hbm, ⟨33, _⟩ => ⟨S8x1024x1024, .f32⟩
  | .hbm, ⟨34, _⟩ => ⟨S_, .f32⟩
  | .hbm, ⟨35, _⟩ => ⟨S8x1024, .f32⟩
  | .hbm, ⟨36, _⟩ => ⟨S8x1024x1024, .f32⟩
  | .hbm, ⟨37, _⟩ => ⟨S8x1024x1, .f32⟩
  | .hbm, ⟨38, _⟩ => ⟨S8x1x1024, .f32⟩
  | .hbm, ⟨39, _⟩ => ⟨S8x1024x1024, .f32⟩
  | .hbm, ⟨40, _⟩ => ⟨S8x1024x1024, .f32⟩
  | .hbm, ⟨41, _⟩ => ⟨S8x1024x1024, .f32⟩
  | .hbm, ⟨42, _⟩ => ⟨S_, .f32⟩
  | .hbm, ⟨43, _⟩ => ⟨S8x1024x1024, .f32⟩
  | .hbm, ⟨44, _⟩ => ⟨S8x1024x1024, .f32⟩
  | .hbm, ⟨45, _⟩ => ⟨S8x1024x1024, .f32⟩
  | .hbm, ⟨46, _⟩ => ⟨S8x1024x1024, .f32⟩
  | .hbm, ⟨47, _⟩ => ⟨S_, .i32⟩
  | .hbm, ⟨48, _⟩ => ⟨S8x1024, .i32⟩
  | .hbm, ⟨49, _⟩ => ⟨S8x1024, .i1⟩
  | .hbm, ⟨50, _⟩ => ⟨S8x1024, .f32⟩
  | .hbm, ⟨51, _⟩ => ⟨S8x1024x1, .f32⟩
  | .hbm, ⟨52, _⟩ => ⟨S8x1x1024, .f32⟩
  | .hbm, ⟨53, _⟩ => ⟨S8x1024x1024, .f32⟩
  | .hbm, ⟨54, _⟩ => ⟨S8x1024x1024, .f32⟩
  | .hbm, ⟨55, _⟩ => ⟨S8x1024x1024, .f32⟩
  | .hbm, ⟨56, _⟩ => ⟨S8x1024x1024, .f32⟩
  | .hbm, ⟨57, _⟩ => ⟨S8x1024x1024, .f32⟩
  | .hbm, ⟨58, _⟩ => ⟨S8x1024x1024, .f32⟩
  | _, _ => ⟨S8x1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  bcast_S8x1024x4_S8x1024x4x1_0_1_2 : S8x1024x4.BroadcastsInDim S8x1024x4x1 (![0, 1, 2] : Fin 3 → Fin S8x1024x4x1.rank)
  bcast_S8x1024x4x1_S8x1024x4x513_0_1_2_3 : S8x1024x4x1.BroadcastsInDim S8x1024x4x513 (![0, 1, 2, 3] : Fin 4 → Fin S8x1024x4x513.rank)
  bcast_S1x1x1x513_S8x1024x4x513_0_1_2_3 : S1x1x1x513.BroadcastsInDim S8x1024x4x513 (![0, 1, 2, 3] : Fin 4 → Fin S8x1024x4x513.rank)
  reducesTo_S8x1024x4x513_S8x1024x513_d2 : S8x1024x4x513.ReducesTo [2] S8x1024x513
  h_S_ : 0 < S_.numel
  slices_S8x1024x513_S8x1024x512_0_0_0 : S8x1024x513.Slices ![0, 0, 0] S8x1024x512
  reducesTo_S8x1024x512_S8x1024_d2 : S8x1024x512.ReducesTo [2] S8x1024
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S_S8x1024x1024 : S_.BroadcastsInDim S8x1024x1024 (![] : Fin 0 → Fin S8x1024x1024.rank)
  bcast_S_S8x1024 : S_.BroadcastsInDim S8x1024 (![] : Fin 0 → Fin S8x1024.rank)
  dot_S8x1024x512_S8x1024x512_S8x1024x1024_2_2_1_1_0_0_wf : DotDims.WF S8x1024x512 S8x1024x512 S8x1024x1024 [2] [2] [1] [1] [0] [0]

variable [Facts₀]

def dot_S8x1024x512_S8x1024x512_S8x1024x1024_2_2_1_1_0_0 : DotDims S8x1024x512 S8x1024x512 S8x1024x1024 where
  lhsContracting := [2]
  rhsContracting := [2]
  lhsNonContracting := [1]
  rhsNonContracting := [1]
  lhsBatch := [0]
  rhsBatch := [0]
  wf := dot_S8x1024x512_S8x1024x512_S8x1024x1024_2_2_1_1_0_0_wf

class Facts : Prop extends Facts₀ where

variable [Facts]
-- ==== Proof.KernelBody.lean ====
/-
  The kernel body of `Kernel` at one grid point, for every float instance: it loads its six input blocks whole
  (two blocks of each id table, one indexed by the row tile and one by the column tile, and likewise two blocks of
  the padding column), and stores the output block whole. What the output block holds afterwards is ONE pure term
  of the six loaded blocks (`blockOut`); the input blocks are left as found. Around it: the host operations that
  run before the region and the arrays' contents when the region is entered (`V`), each window's block at a point
  (`iblk`), the proof data of the launch and the body's obligation at every point.

  Three arrays are each read through TWO windows (the id tables and the padding column: once by row tile, once by
  column tile); the two windows of a pair hold the array at complementary half shares.
-/
import proofs.«151109_j19963007992433_1_alg».proof.Proof.Gen.Kernel.Launch
import proofs.«151109_j19963007992433_1_alg».proof.Proof.Gen.Kernel.Skeleton
import proofs.«151109_j19963007992433_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the seven host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is those operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rZ : Rect S1x512x4 := Rect.unit (s := S1x512x4) ![0, 0, 0] S1x512x4.size inb_S1x512x4_S1x512x4_0_0_0
abbrev rP : Rect S1x512x1 := Rect.unit (s := S1x512x1) ![0, 0, 0] S1x512x1.size inb_S1x512x1_S1x512x1_0_0_0
abbrev rO : Rect S1x512x512 := Rect.unit (s := S1x512x512) ![0, 0, 0] S1x512x512.size inb_S1x512x512_S1x512x512_0_0_0

/-- The column-index vector both one-hot encodings compare against. -/
abbrev cols : IVec S512x512 32 := iota .tc S512x512 32 [1] iota_S512x512_d1_w32

/-- The value the body stores, from the six loaded blocks: row and column ids of the first table (`z0`, `z1`), of
    the second (`z2`, `z3`), and the row and column padding blocks (`p4`, `p5`). -/
def stored (z0 z1 z2 z3 : Vec F S1x512x4 .i32) (p4 p5 : Vec F S1x512x1 .f32) : FVec F S1x512x512 .f32 :=
  k0_pay1
    (k0_pay11 cols (k0_pay2 z0) (k0_pay6 cols (k0_pay3 z1) (k0_pay4 z1) (k0_pay5 z1)) (k0_pay7 cols z2) (k0_pay8 z3) (k0_pay9 cols z3) (k0_pay10 cols z3))
    (k0_pay12 p5) (k0_pay13 p4)

/-- The output window's staging buffer after the body: its one store, which covers it. -/
def blockOut (x0 x1 x2 x3 : Vec F S1x512x4 .i32) (x4 x5 : Vec F S1x512x1 .f32) : Vec F S1x512x512 .f32 :=
  View.canon [⟨rO, stored (View.ld x0 rZ) (View.ld x1 rZ) (View.ld x2 rZ) (View.ld x3 rZ) (View.ld x4 rP) (View.ld x5 rP)⟩]

theorem coverOut (p0 : Vec F S1x512x512 .f32) (y : S1x512x512.Idx) :
    ∃ pc ∈ ([⟨rO, p0⟩] : List (View.Piece (Elt F) S1x512x512 .f32)), y ∈ pc.1.set :=
  View.cover_of_tiled [⟨rO, p0⟩] S1x512x512.size (by rfl) y

/-! ## The body's triple -/

set_option maxHeartbeats 4000000 in
/-- On whole staging memrefs, the inputs' at contents `x0 … x5` and the output's at anything, the body runs to its
    continuation with the inputs' as they were and the output's at `blockOut`. -/
theorem sound_kernel (c : Dev nD) (E : Set ℕ) (i : grid0.Coords) (arg3 : Memref sig .tc .vmem S1x512x4 .i32) (harg3 : arg3.IsWhole) (arg4 : Memref sig .tc .vmem S1x512x4 .i32) (harg4 : arg4.IsWhole) (arg5 : Memref sig .tc .vmem S1x512x4 .i32) (harg5 : arg5.IsWhole) (arg6 : Memref sig .tc .vmem S1x512x4 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x512 .f32) (harg9 : arg9.IsWhole)
    (x0 x1 x2 x3 : Vec F S1x512x4 .i32) (x4 x5 : Vec F S1x512x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (blockOut x0 x1 x2 x3 x4 x5)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-- An input window's current staging buffer holds its block at every point, whether the pipeline fetched it there
    or the block index did not move since the point before (the row-tile windows, at the second column tile). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The launch's proof data -/

/-- The proof data on core `c`: the arrays as the region finds them; after the body each input's buffer at its block
    and the output's at `blockOut` of the six input blocks; no invariant (the kernel keeps nothing between points and
    has no scratch); nothing owed. The two windows on one array hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (iblk m c 0 t) (iblk m c 1 t) (iblk m c 2 t) (iblk m c 3 t) (iblk m c 4 t) (iblk m c 5 t)
  Φ _ := BI.emp
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = blockOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The run of `Kernel`'s @main, for every float instance: the seven host operations, then the region at each of
  its 32 grid points, the body's obligation discharged at every point. Every weakly fair execution terminates
  without fault; afterwards each window's array holds what the launch's proof data computes (an input array its
  entry contents, the output array the blocks the body left, written back point by point) and every other buffer
  what it held when the region was entered.

  The id tables and the padding column are each handed to the kernel through two windows. The launch therefore
  takes the four distinct buffers behind the seven windows' arrays, each whole at the full share, and splits
  each shared one into its two halves, one per window (`hsplit`).
-/
import proofs.«151109_j19963007992433_1_alg».proof.Proof.KernelBody
import Idealize.ShloMosaic.Lib.Pipeline.Launch
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, split among the windows -/

/-- The seven windows' arrays are four buffers. -/
theorem arrRefs_eq : Finset.univ.image (Pipeline.arrRef spec0) = ([main_arg0, main_arg1, main_v5, main_v6] : List (Ref sig .tc)).toFinset := by
  decide

theorem share0 (c : Dev nD) : (dats m 0 c).share 0 = fullShare.left := by
  unfold Dat.share; rfl
theorem share1 (c : Dev nD) : (dats m 0 c).share 1 = fullShare.right := by
  unfold Dat.share; rfl
theorem share2 (c : Dev nD) : (dats m 0 c).share 2 = fullShare.left := by
  unfold Dat.share; rfl
theorem share3 (c : Dev nD) : (dats m 0 c).share 3 = fullShare.right := by
  unfold Dat.share; rfl
theorem share4 (c : Dev nD) : (dats m 0 c).share 4 = fullShare.left := by
  unfold Dat.share; rfl
theorem share5 (c : Dev nD) : (dats m 0 c).share 5 = fullShare.right := by
  unfold Dat.share; rfl
theorem share6 (c : Dev nD) : (dats m 0 c).share 6 = fullShare := by
  unfold Dat.share; rfl

/-- Window `w`'s array at entry, held at share `q`, is the buffer behind it at the entry contents. -/
theorem arr_pt (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w) : sProp 𝕄) := by
  rw [(arr_whole0 w).set_eq_univ, hq]; rfl

/-- The four buffers behind the windows' arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v5) ↦{fullShare} V m c main_v5) ∗ (((c.tc : Thread nD τ).loc main_v6) ↦{fullShare} V m c main_v6)) := by
  unfold Pipeline.arrBufs
  exact bigSep_eq_bigSepL_of_eq [main_arg0, main_arg1, main_v5, main_v6] arrRefs_eq (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0,
    arr_pt m c 0 _ (share0 m c), arr_pt m c 1 _ (share1 m c), arr_pt m c 2 _ (share2 m c), arr_pt m c 3 _ (share3 m c),
    arr_pt m c 4 _ (share4 m c), arr_pt m c 5 _ (share5 m c), arr_pt m c 6 _ (share6 m c)]
  iintro ⟨H0, H1, H5, H6⟩
  ihave S0 := (pointsTo_share (PosShare.mem_left_op_right fullShare)).1 $$ H0
  icases S0 with ⟨H0a, H0b⟩
  ihave S1 := (pointsTo_share (PosShare.mem_left_op_right fullShare)).1 $$ H1
  icases S1 with ⟨H1a, H1b⟩
  ihave S5 := (pointsTo_share (PosShare.mem_left_op_right fullShare)).1 $$ H5
  icases S5 with ⟨H5a, H5b⟩
  isplitl [H0a]; · iexact H0a
  isplitl [H0b]; · iexact H0b
  isplitl [H1a]; · iexact H1a
  isplitl [H1b]; · iexact H1b
  isplitl [H5a]; · iexact H5a
  isplitl [H5b]; · iexact H5b
  iexact H6

/-! ## The run -/

/-- At the compiled mesh, from any memory with zero counters: every weakly fair execution of @main on the
    TensorCores terminates, and in every final state each window's array holds what the proof data computes after
    the last write-back, and every other unscoped buffer what it held at the region's entry. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      show _ ⊢ (BI.emp : sProp 𝕄)
      iintro -; iempintro)
    (hout := fun c => by
      rw [scopedRest0_eq]
      show (BI.emp : sProp 𝕄) ⊢ _
      iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The argument arrays end unchanged -/

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The two id tables are input windows' arrays, never written back; the indicator and the padding scalar are
    staged by no window and keep their entry contents. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
   ((h c).1 2).trans (((dats m 0 c).arrAt_in 2 rfl _).trans ((A_eq m c 2).trans (V_main_arg1 m c))),
   ((h c).2 main_arg2 (Pipeline.mem_restRefs_of main_arg2 (by decide) (by decide))).trans (V_main_arg2 m c),
   ((h c).2 main_arg3 (Pipeline.mem_restRefs_of main_arg3 (by decide) (by decide))).trans (V_main_arg3 m c)⟩

/-- The frame: @main runs to the end without fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.Kernel.Hand

end
-- ==== Proof.KernelIdealBody.lean ====
/-
  The kernel body of `KernelIdeal` at one grid point, for every float instance: it loads its six input blocks whole
  (two blocks of each id table, one indexed by the row tile and one by the column tile, and likewise two blocks of
  the padding column), and stores the output block whole. What the output block holds afterwards is ONE pure term
  of the six loaded blocks (`blockOut`); the input blocks are left as found. Around it: the host operations that
  run before the region and the arrays' contents when the region is entered (`V`), each window's block at a point
  (`iblk`), the proof data of the launch and the body's obligation at every point.

  Three arrays are each read through TWO windows (the id tables and the padding column: once by row tile, once by
  column tile); the two windows of a pair hold the array at complementary half shares.
-/
import proofs.«151109_j19963007992433_1_alg».proof.Proof.Gen.KernelIdeal.Launch
import proofs.«151109_j19963007992433_1_alg».proof.Proof.Gen.KernelIdeal.Skeleton
import proofs.«151109_j19963007992433_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the seven host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is those operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rZ : Rect S1x512x4 := Rect.unit (s := S1x512x4) ![0, 0, 0] S1x512x4.size inb_S1x512x4_S1x512x4_0_0_0
abbrev rP : Rect S1x512x1 := Rect.unit (s := S1x512x1) ![0, 0, 0] S1x512x1.size inb_S1x512x1_S1x512x1_0_0_0
abbrev rO : Rect S1x512x512 := Rect.unit (s := S1x512x512) ![0, 0, 0] S1x512x512.size inb_S1x512x512_S1x512x512_0_0_0

/-- The column-index vector both one-hot encodings compare against. -/
abbrev cols : IVec S512x512 32 := iota .tc S512x512 32 [1] iota_S512x512_d1_w32

/-- The value the body stores, from the six loaded blocks: row and column ids of the first table (`z0`, `z1`), of
    the second (`z2`, `z3`), and the row and column padding blocks (`p4`, `p5`). -/
def stored (z0 z1 z2 z3 : Vec F S1x512x4 .i32) (p4 p5 : Vec F S1x512x1 .f32) : FVec F S1x512x512 .f32 :=
  k0_pay1
    (k0_pay11 cols (k0_pay2 z0) (k0_pay6 cols (k0_pay3 z1) (k0_pay4 z1) (k0_pay5 z1)) (k0_pay7 cols z2) (k0_pay8 z3) (k0_pay9 cols z3) (k0_pay10 cols z3))
    (k0_pay12 p5) (k0_pay13 p4)

/-- The output window's staging buffer after the body: its one store, which covers it. -/
def blockOut (x0 x1 x2 x3 : Vec F S1x512x4 .i32) (x4 x5 : Vec F S1x512x1 .f32) : Vec F S1x512x512 .f32 :=
  View.canon [⟨rO, stored (View.ld x0 rZ) (View.ld x1 rZ) (View.ld x2 rZ) (View.ld x3 rZ) (View.ld x4 rP) (View.ld x5 rP)⟩]

theorem coverOut (p0 : Vec F S1x512x512 .f32) (y : S1x512x512.Idx) :
    ∃ pc ∈ ([⟨rO, p0⟩] : List (View.Piece (Elt F) S1x512x512 .f32)), y ∈ pc.1.set :=
  View.cover_of_tiled [⟨rO, p0⟩] S1x512x512.size (by rfl) y

/-! ## The body's triple -/

set_option maxHeartbeats 4000000 in
/-- On whole staging memrefs, the inputs' at contents `x0 … x5` and the output's at anything, the body runs to its
    continuation with the inputs' as they were and the output's at `blockOut`. -/
theorem sound_kernel (c : Dev nD) (E : Set ℕ) (i : grid0.Coords) (arg3 : Memref sig .tc .vmem S1x512x4 .i32) (harg3 : arg3.IsWhole) (arg4 : Memref sig .tc .vmem S1x512x4 .i32) (harg4 : arg4.IsWhole) (arg5 : Memref sig .tc .vmem S1x512x4 .i32) (harg5 : arg5.IsWhole) (arg6 : Memref sig .tc .vmem S1x512x4 .i32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x512 .f32) (harg9 : arg9.IsWhole)
    (x0 x1 x2 x3 : Vec F S1x512x4 .i32) (x4 x5 : Vec F S1x512x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (blockOut x0 x1 x2 x3 x4 x5)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverOut _)

/-- An input window's current staging buffer holds its block at every point, whether the pipeline fetched it there
    or the block index did not move since the point before (the row-tile windows, at the second column tile). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The launch's proof data -/

/-- The proof data on core `c`: the arrays as the region finds them; after the body each input's buffer at its block
    and the output's at `blockOut` of the six input blocks; no invariant (the kernel keeps nothing between points and
    has no scratch); nothing owed. The two windows on one array hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (iblk m c 0 t) (iblk m c 1 t) (iblk m c 2 t) (iblk m c 3 t) (iblk m c 4 t) (iblk m c 5 t)
  Φ _ := BI.emp
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = blockOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of `KernelIdeal`'s @main, for every float instance: the seven host operations, then the region at each of
  its 32 grid points, the body's obligation discharged at every point. Every weakly fair execution terminates
  without fault; afterwards each window's array holds what the launch's proof data computes (an input array its
  entry contents, the output array the blocks the body left, written back point by point) and every other buffer
  what it held when the region was entered.

  The id tables and the padding column are each handed to the kernel through two windows. The launch therefore
  takes the four distinct buffers behind the seven windows' arrays, each whole at the full share, and splits
  each shared one into its two halves, one per window (`hsplit`).
-/
import proofs.«151109_j19963007992433_1_alg».proof.Proof.KernelIdealBody
import Idealize.ShloMosaic.Lib.Pipeline.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, split among the windows -/

/-- The seven windows' arrays are four buffers. -/
theorem arrRefs_eq : Finset.univ.image (Pipeline.arrRef spec0) = ([main_arg0, main_arg1, main_v5, main_v6] : List (Ref sig .tc)).toFinset := by
  decide

theorem share0 (c : Dev nD) : (dats m 0 c).share 0 = fullShare.left := by
  unfold Dat.share; rfl
theorem share1 (c : Dev nD) : (dats m 0 c).share 1 = fullShare.right := by
  unfold Dat.share; rfl
theorem share2 (c : Dev nD) : (dats m 0 c).share 2 = fullShare.left := by
  unfold Dat.share; rfl
theorem share3 (c : Dev nD) : (dats m 0 c).share 3 = fullShare.right := by
  unfold Dat.share; rfl
theorem share4 (c : Dev nD) : (dats m 0 c).share 4 = fullShare.left := by
  unfold Dat.share; rfl
theorem share5 (c : Dev nD) : (dats m 0 c).share 5 = fullShare.right := by
  unfold Dat.share; rfl
theorem share6 (c : Dev nD) : (dats m 0 c).share 6 = fullShare := by
  unfold Dat.share; rfl

/-- Window `w`'s array at entry, held at share `q`, is the buffer behind it at the entry contents. -/
theorem arr_pt (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w) : sProp 𝕄) := by
  rw [(arr_whole0 w).set_eq_univ, hq]; rfl

/-- The four buffers behind the windows' arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v5) ↦{fullShare} V m c main_v5) ∗ (((c.tc : Thread nD τ).loc main_v6) ↦{fullShare} V m c main_v6)) := by
  unfold Pipeline.arrBufs
  exact bigSep_eq_bigSepL_of_eq [main_arg0, main_arg1, main_v5, main_v6] arrRefs_eq (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0,
    arr_pt m c 0 _ (share0 m c), arr_pt m c 1 _ (share1 m c), arr_pt m c 2 _ (share2 m c), arr_pt m c 3 _ (share3 m c),
    arr_pt m c 4 _ (share4 m c), arr_pt m c 5 _ (share5 m c), arr_pt m c 6 _ (share6 m c)]
  iintro ⟨H0, H1, H5, H6⟩
  ihave S0 := (pointsTo_share (PosShare.mem_left_op_right fullShare)).1 $$ H0
  icases S0 with ⟨H0a, H0b⟩
  ihave S1 := (pointsTo_share (PosShare.mem_left_op_right fullShare)).1 $$ H1
  icases S1 with ⟨H1a, H1b⟩
  ihave S5 := (pointsTo_share (PosShare.mem_left_op_right fullShare)).1 $$ H5
  icases S5 with ⟨H5a, H5b⟩
  isplitl [H0a]; · iexact H0a
  isplitl [H0b]; · iexact H0b
  isplitl [H1a]; · iexact H1a
  isplitl [H1b]; · iexact H1b
  isplitl [H5a]; · iexact H5a
  isplitl [H5b]; · iexact H5b
  iexact H6

/-! ## The run -/

/-- At the compiled mesh, from any memory with zero counters: every weakly fair execution of @main on the
    TensorCores terminates, and in every final state each window's array holds what the proof data computes after
    the last write-back, and every other unscoped buffer what it held at the region's entry. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      show _ ⊢ (BI.emp : sProp 𝕄)
      iintro -; iempintro)
    (hout := fun c => by
      rw [scopedRest0_eq]
      show (BI.emp : sProp 𝕄) ⊢ _
      iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The argument arrays end unchanged -/

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The two id tables are input windows' arrays, never written back; the indicator and the padding scalar are
    staged by no window and keep their entry contents. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
   ((h c).1 2).trans (((dats m 0 c).arrAt_in 2 rfl _).trans ((A_eq m c 2).trans (V_main_arg1 m c))),
   ((h c).2 main_arg2 (Pipeline.mem_restRefs_of main_arg2 (by decide) (by decide))).trans (V_main_arg2 m c),
   ((h c).2 main_arg3 (Pipeline.mem_restRefs_of main_arg3 (by decide) (by decide))).trans (V_main_arg3 m c)⟩

/-- The frame: @main runs to the end without fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.KernelIdeal.Hand

end
-- ==== Proof.Spec.lean ====
/-
  What both programs compute, as one function of the four argument arrays, over the extended reals.

  For an id table `z : i32[8, 1024, 4]`, row `(b, i)` is encoded as the multi-hot vector over the 512 node columns:
  entry `n` is 1 when one of the row's four ids equals `n` and 0 otherwise, taken as the running maximum, from 0, of
  the four indicator values. The distance between rows `i` and `j` of batch `b` is
  `s i + s j - 2 · ⟨row i, row j⟩` with `s` the row sum (the L1 distance of two 0/1 vectors). The result at
  `(b, i, j)` is the larger of the two tables' distances plus a padding term built from the indicator
  `e i = [indicator b i = 0]` and the padding distance `P`:

    * as the kernel computes it, `max (e i · P) (e j · P)`  (`G`);
    * as the reference computes it, `max (e i) (e j) · P`   (`Gref`).

  For a real `P ≥ 0` the two agree, because `e i, e j ∈ {0, 1}` (`G_eq_Gref`); for `P < 0`, `e i = 1`, `e j = 0`
  they differ (0 against `P`), which is why the statement carries `P ≥ 0`.
-/
import Idealize.ShloMosaic.PureOps.Ideal
import Idealize.ShloMosaic.Lib.ValueIdx

noncomputable section

namespace Cert.Spec

open Idealize.ShloMosaic Idealize.ShloMosaic.ValueIdx

/-! ## A one-bit word as a number -/

/-- A one-bit word as the extended real 0 or 1. -/
def bit (b : BitVec 1) : EReal := ((b.toNat : ℝ) : EReal)

theorem bit_zero : bit 0#1 = 0 := by simp [bit]
theorem bit_one : bit 1#1 = 1 := by simp [bit]

theorem bit_nonneg (b : BitVec 1) : 0 ≤ bit b := by
  rcases BitVec.eq_zero_or_eq_one b with h | h <;> rw [h]
  · rw [bit_zero]
  · rw [bit_one]; exact zero_le_one

/-- The bit widened to 32 bits and converted as a signed integer is that number, -/
theorem sitofp_bit (b : BitVec 1) : FloatOps.sitofp (F := Ideal) .f32 (b.setWidth 32) = bit b := by
  rcases BitVec.eq_zero_or_eq_one b with h | h <;> subst h
  · show (((BitVec.setWidth 32 0#1).toInt : ℝ) : EReal) = bit 0#1
    rw [bit_zero]; simp
  · show (((BitVec.setWidth 32 1#1).toInt : ℝ) : EReal) = bit 1#1
    rw [bit_one, show (BitVec.setWidth 32 1#1).toInt = 1 from by decide]; simp

/-- and so is the bit converted as an unsigned integer. -/
theorem uitofp_bit (b : BitVec 1) : FloatOps.uitofp (F := Ideal) .f32 b = bit b := rfl

/-! ## The shapes -/

abbrev SZ : Shape := ⟨3, ![8, 1024, 4]⟩
abbrev SI : Shape := ⟨2, ![8, 1024]⟩
abbrev SO : Shape := ⟨3, ![8, 1024, 1024]⟩

/-! ## The multi-hot rows and their distances -/

/-- The indicator that id word `a` names node column `n`. -/
def hot (a : BitVec 32) (n : Fin 512) : EReal := bit (IntOp.cmpi .eq a (BitVec.ofNat 32 n.val))

theorem hot_nonneg (a : BitVec 32) (n : Fin 512) : 0 ≤ hot a n := bit_nonneg _

/-- Entry `n` of the multi-hot encoding of row `(b, i)` of the id table `z`: the running maximum, from 0, of the four
    ids' indicators. -/
def multiHot (z : SZ.Idx → BitVec 32) (b : Fin 8) (i : Fin 1024) (n : Fin 512) : EReal :=
  max (max (max (max 0 (hot (z (ix3 b i (0 : Fin 4))) n)) (hot (z (ix3 b i (1 : Fin 4))) n)) (hot (z (ix3 b i (2 : Fin 4))) n))
    (hot (z (ix3 b i (3 : Fin 4))) n)

/-- The same maximum taken from minus infinity, or from the first indicator: the indicators are nonnegative. -/
theorem multiHot_eq_bot (z : SZ.Idx → BitVec 32) (b : Fin 8) (i : Fin 1024) (n : Fin 512) :
    max (max (max (max ⊥ (hot (z (ix3 b i (0 : Fin 4))) n)) (hot (z (ix3 b i (1 : Fin 4))) n)) (hot (z (ix3 b i (2 : Fin 4))) n))
      (hot (z (ix3 b i (3 : Fin 4))) n) = multiHot z b i n := by
  unfold multiHot
  rw [max_eq_right bot_le, max_eq_right (hot_nonneg _ _)]

/-- The literal 2.0 both programs multiply the inner product by. -/
def two : EReal := Ideal.ofBits .f32 0x40000000#32

def rowSum (z : SZ.Idx → BitVec 32) (b : Fin 8) (i : Fin 1024) : EReal := ∑ n : Fin 512, multiHot z b i n

def inner (z : SZ.Idx → BitVec 32) (b : Fin 8) (i j : Fin 1024) : EReal := ∑ n : Fin 512, multiHot z b i n * multiHot z b j n

/-- The distance between rows `i` and `j` of batch `b`. -/
def dist (z : SZ.Idx → BitVec 32) (b : Fin 8) (i j : Fin 1024) : EReal :=
  rowSum z b i + rowSum z b j - two * inner z b i j

/-- The padding indicator of position `(b, i)`: 1 where the indicator word is 0. -/
def padBit (ind : SI.Idx → BitVec 32) (b : Fin 8) (i : Fin 1024) : EReal := bit (IntOp.cmpi .eq (ind (ix2 b i)) 0#32)

/-- The result, with the padding term as the kernel arranges it. -/
def G (zt zl : SZ.Idx → BitVec 32) (ind : SI.Idx → BitVec 32) (P : EReal) : SO.Idx → EReal := fun o =>
  max (dist zt (o 0) (o 1) (o 2)) (dist zl (o 0) (o 1) (o 2)) + max (padBit ind (o 0) (o 1) * P) (padBit ind (o 0) (o 2) * P)

/-- The result, with the padding term as the reference arranges it. -/
def Gref (zt zl : SZ.Idx → BitVec 32) (ind : SI.Idx → BitVec 32) (P : EReal) : SO.Idx → EReal := fun o =>
  max (dist zt (o 0) (o 1) (o 2)) (dist zl (o 0) (o 1) (o 2)) + max (padBit ind (o 0) (o 1)) (padBit ind (o 0) (o 2)) * P

/-! ## The two padding terms agree for a nonnegative real padding distance -/

theorem pad_law (a b : BitVec 1) (p : ℝ) (hp : 0 ≤ p) :
    max (bit a * (p : EReal)) (bit b * (p : EReal)) = max (bit a) (bit b) * (p : EReal) := by
  have hp' : (0 : EReal) ≤ (p : EReal) := EReal.coe_nonneg.mpr hp
  rcases BitVec.eq_zero_or_eq_one a with ha | ha <;> rcases BitVec.eq_zero_or_eq_one b with hb | hb <;> subst ha <;> subst hb <;>
    simp only [bit_zero, bit_one, zero_mul, one_mul, max_self]
  · rw [max_eq_right hp', max_eq_right zero_le_one, one_mul]
  · rw [max_eq_left hp', max_eq_left zero_le_one, one_mul]

theorem G_eq_Gref (zt zl : SZ.Idx → BitVec 32) (ind : SI.Idx → BitVec 32) (p : ℝ) (hp : 0 ≤ p) :
    G zt zl ind (p : EReal) = Gref zt zl ind (p : EReal) := by
  funext o
  unfold G Gref padBit
  rw [pad_law _ _ p hp]

end Cert.Spec

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelPayload.lean ====
/-
  The kernel body's arithmetic at one entry of the output block, at the ideal values.

  A block of an id table is `[1, 512, 4]`: 512 rows of four ids. Its multi-hot matrix `[512, 512]` has at `(r, n)`
  the running maximum, from 0, of the four indicators "id `d` of row `r` is `n`" (`mh`). The row-tile and column-tile
  blocks of one table give the distance block `s r + s' c - 2 · Σ_n mh r n · mh' c n`; the stored value at `(0, r, c)`
  is the larger of the two tables' distances plus the larger of the row block's and the column block's padding
  entries (`stored_apply`).
-/
import proofs.«151109_j19963007992433_1_alg».proof.Proof.KernelIdealBody
import proofs.«151109_j19963007992433_1_alg».proof.Proof.Spec
import proofs.«151109_j19963007992433_1_alg».proof.Proof.LibMatmulRowCol
import proofs.«151109_j19963007992433_1_alg».proof.Proof.LibColumn
import Idealize.ShloMosaic.Lib.ValueLayout
import Idealize.ShloMosaic.Lib.Pipeline.Value
import Idealize.ShloMosaic.PureOps.Ideal.Laws

noncomputable section

namespace Cert.KernelPayload

open Idealize.ShloMosaic Idealize.ShloMosaic.ValueIdx Cert.KernelIdeal Cert.KernelIdeal.Gen Cert.Spec

/-! ## The multi-hot matrix of an id block -/

/-- Entry `(r, n)` of the multi-hot matrix of the id block `z`. -/
def mh (z : Vec Ideal S1x512x4 .i32) (r n : Fin 512) : EReal :=
  max (max (max (max 0 (hot (z (ix3 (0 : Fin 1) r (0 : Fin 4))) n)) (hot (z (ix3 (0 : Fin 1) r (1 : Fin 4))) n)) (hot (z (ix3 (0 : Fin 1) r (2 : Fin 4))) n))
    (hot (z (ix3 (0 : Fin 1) r (3 : Fin 4))) n)

/-- The block viewed as a `[512, 4]` matrix reads row `r`, id `d`. -/
theorem ids_apply (z : Vec Ideal S1x512x4 .i32) (h : S1x512x4.ShapeCasts S512x4) (r : Fin 512) (d : Fin 4) :
    (shapeCast S512x4 z h : IVec S512x4 32) (ix2 r d) = z (ix3 (0 : Fin 1) r d) :=
  shapeCast_1ab_ab_apply z h r d

/-- One id column spread over the 512 node columns and compared with the column index, as a float: at `(r, n)` the
    indicator that id `k` of row `r` is `n`. -/
theorem ind_apply (v3 : IVec S512x4 32) (o : Nat) (k : Fin 4) (hk : k.val = o) (hs : S512x4.Slices ![0, o] S512x1)
    (hb : S512x1.Broadcasts S512x512) (hi : S512x512.Iotas .tc 32 [1]) (hlt : 1 < 32) (r n : Fin 512) :
    (sitofp .f32 (extui 32 (cmpi .eq (broadcastTo S512x512 (extractStridedSlice S512x1 ![0, o] v3 hs) hb) (iota .tc S512x512 32 [1] hi)) hlt) : FVec Ideal S512x512 .f32) (ix2 r n)
      = hot (v3 (ix2 r k)) n := by
  rw [sitofp_apply, extui_apply]
  show FloatOps.sitofp (F := Ideal) .f32 ((IntOp.cmpi .eq (broadcastTo S512x512 (extractStridedSlice S512x1 ![0, o] v3 hs) hb (ix2 r n)) (iota .tc S512x512 32 [1] hi (ix2 r n))).setWidth 32) = _
  rw [Cert.Lib.Column.broadcastTo_a1_ab_apply, slice2_axis1_apply o v3 hs r (0 : Fin 1) k (by simpa using hk), iota_single_apply]
  exact sitofp_bit _

/-- The zero the running maximum starts from. -/
theorem zero_apply (r n : Fin 512) : (broadcast S512x512 (Scalar.ofBits (F := Ideal) .f32 0x00000000#32) : FVec Ideal S512x512 .f32) (ix2 r n) = 0 :=
  Ideal.ofBits_zero_f32

theorem pay2_apply (z : Vec Ideal S1x512x4 .i32) (r n : Fin 512) : k0_pay2 (F := Ideal) z (ix2 r n) = mh z r n := by
  unfold k0_pay2 mh
  show max (max (max (max _ _) _) _) _ = _
  refine congrArg₂ max (congrArg₂ max (congrArg₂ max (congrArg₂ max (zero_apply r n) ?_) ?_) ?_) ?_
  · exact (ind_apply _ 0 0 rfl _ _ _ _ r n).trans (congrArg (hot · n) (ids_apply z _ r 0))
  · exact (ind_apply _ 1 1 rfl _ _ _ _ r n).trans (congrArg (hot · n) (ids_apply z _ r 1))
  · exact (ind_apply _ 2 2 rfl _ _ _ _ r n).trans (congrArg (hot · n) (ids_apply z _ r 2))
  · exact (ind_apply _ 3 3 rfl _ _ _ _ r n).trans (congrArg (hot · n) (ids_apply z _ r 3))

open Cert.KernelIdeal.Hand (cols stored)

theorem pay6_apply (z : Vec Ideal S1x512x4 .i32) (r n : Fin 512) :
    k0_pay6 (F := Ideal) cols (k0_pay3 z) (k0_pay4 z) (k0_pay5 z) (ix2 r n) = mh z r n := by
  unfold k0_pay6 k0_pay5 k0_pay4 k0_pay3 mh
  show max (max (max (max _ _) _) _) _ = _
  refine congrArg₂ max (congrArg₂ max (congrArg₂ max (congrArg₂ max (zero_apply r n) ?_) ?_) ?_) ?_
  · exact (ind_apply _ 0 0 rfl _ _ _ _ r n).trans (congrArg (hot · n) (ids_apply z _ r 0))
  · exact (ind_apply _ 1 1 rfl _ _ _ _ r n).trans (congrArg (hot · n) (ids_apply z _ r 1))
  · exact (ind_apply _ 2 2 rfl _ _ _ _ r n).trans (congrArg (hot · n) (ids_apply z _ r 2))
  · exact (ind_apply _ 3 3 rfl _ _ _ _ r n).trans (congrArg (hot · n) (ids_apply z _ r 3))

theorem pay7_apply (z : Vec Ideal S1x512x4 .i32) (r n : Fin 512) : k0_pay7 (F := Ideal) cols z (ix2 r n) = mh z r n := by
  unfold k0_pay7 mh
  show max (max (max (max _ _) _) _) _ = _
  refine congrArg₂ max (congrArg₂ max (congrArg₂ max (congrArg₂ max (zero_apply r n) ?_) ?_) ?_) ?_
  · exact (ind_apply _ 0 0 rfl _ _ _ _ r n).trans (congrArg (hot · n) (ids_apply z _ r 0))
  · exact (ind_apply _ 1 1 rfl _ _ _ _ r n).trans (congrArg (hot · n) (ids_apply z _ r 1))
  · exact (ind_apply _ 2 2 rfl _ _ _ _ r n).trans (congrArg (hot · n) (ids_apply z _ r 2))
  · exact (ind_apply _ 3 3 rfl _ _ _ _ r n).trans (congrArg (hot · n) (ids_apply z _ r 3))

/-! ## The distance stage, for any two `[512, 512]` matrices -/

/-- The reduced index `r` with lane `k` put back is `(r, k)`. -/
theorem lift_row (h : S512x512.Reduces [1] S512) (r : Fin 512) (k : Fin (S512x512.size 1)) :
    h.lift (ix1 r) k = ix2 r (⟨k.val, k.isLt⟩ : Fin 512) := by
  funext c; apply Fin.ext
  fin_cases c <;> rfl

/-- A lane sum from the zero word is the sum of the row. -/
theorem rowsum_apply (A : FVec Ideal S512x512 .f32) (h : S512x512.Reduces [1] S512) (hφ : FKind.Formats .f32)
    (hacc : (0x00000000#32 : BitVec 32) = 0x00000000#32) (r : Fin 512) :
    multiReduction .add [1] S512 A 0x00000000#32 h hφ hacc (ix1 r) = ∑ n : Fin 512, A (ix2 r n) := by
  refine (Ideal.multiReduction_add_single A 0x00000000#32 h hφ hacc (ix1 r)).trans ?_
  exact Finset.sum_congr rfl fun k _ => congrArg A (lift_row h r k)

/-- The row sums kept as a column and spread over the row: at `(r, c)` the sum of row `r`. -/
theorem rowcol_apply (A : FVec Ideal S512x512 .f32) (h : S512x512.Reduces [1] S512) (hφ : FKind.Formats .f32)
    (hacc : (0x00000000#32 : BitVec 32) = 0x00000000#32) (hc : S512.ShapeCasts S512x1) (hb : S512x1.Broadcasts S512x512) (r c : Fin 512) :
    (broadcastTo S512x512 (shapeCast S512x1 (multiReduction .add [1] S512 A 0x00000000#32 h hφ hacc) hc) hb : FVec Ideal S512x512 .f32) (ix2 r c)
      = ∑ n : Fin 512, A (ix2 r n) :=
  (Cert.Lib.Column.broadcastTo_a1_ab_apply _ hb r c).trans
    ((Cert.Lib.Column.shapeCast_a_a1_apply _ hc r (0 : Fin 1)).trans (rowsum_apply A h hφ hacc r))

/-- The row sums kept as a column, transposed to a row and spread down the columns: at `(r, c)` the sum of row `c`. -/
theorem colrow_apply (B : FVec Ideal S512x512 .f32) (h : S512x512.Reduces [1] S512) (hφ : FKind.Formats .f32)
    (hacc : (0x00000000#32 : BitVec 32) = 0x00000000#32) (hc : S512.ShapeCasts S512x1) (ht : S512x1.Transposes [1, 0] S1x512)
    (hb : S1x512.Broadcasts S512x512) (r c : Fin 512) :
    (broadcastTo S512x512 (transpose S1x512 [1, 0] (shapeCast S512x1 (multiReduction .add [1] S512 B 0x00000000#32 h hφ hacc) hc) ht) hb : FVec Ideal S512x512 .f32) (ix2 r c)
      = ∑ n : Fin 512, B (ix2 c n) :=
  (broadcastTo_1b_ab_apply _ hb r c).trans
    ((transpose_ix2_apply _ ht (0 : Fin 1) c).trans
      ((Cert.Lib.Column.shapeCast_a_a1_apply _ hc c (0 : Fin 1)).trans (rowsum_apply B h hφ hacc c)))

/-- The product of one matrix with the transpose of another, into zero: at `(r, c)` the inner product of row `r` of
    the first with row `c` of the second. A change of float format is the identity at the ideal values. -/
theorem inner_apply (A B : FVec Ideal S512x512 .f32) (hA : FTy.bf16.bits < FTy.f32.bits) (hB : FTy.bf16.bits < FTy.f32.bits)
    (ht : S512x512.Transposes [1, 0] S512x512) (r c : Fin 512) :
    (matmul dot_S512x512_S512x512_S512x512_1_0_0_1_n_n none (truncf .bf16 A hA) (transpose S512x512 [1, 0] (truncf .bf16 B hB) ht)
        (constant S512x512 .f32 0x00000000#32) : FVec Ideal S512x512 .f32) (ix2 r c)
      = ∑ n : Fin 512, A (ix2 r n) * B (ix2 c n) := by
  refine (Cert.LibMatmul.matmul_rowcol dot_S512x512_S512x512_S512x512_1_0_0_1_n_n rfl rfl (fun _ _ => rfl) (fun _ _ => rfl) (fun _ _ => rfl) (fun _ _ => rfl)
    (truncf .bf16 A hA) (transpose S512x512 [1, 0] (truncf .bf16 B hB) ht) r c).trans ?_
  exact Finset.sum_congr rfl fun n _ => congrArg (A (ix2 r n) * ·) (transpose_ix2_apply (truncf .bf16 B hB) ht n c)

/-- The distance of two multi-hot rows given as rows of `A` and `B`. -/
def dist2 (A B : Fin 512 → Fin 512 → EReal) (r c : Fin 512) : EReal :=
  (∑ n : Fin 512, A r n) + (∑ n : Fin 512, B c n) - two * ∑ n : Fin 512, A r n * B c n

/-- The fourth multi-hot matrix, which the body assembles across three of its parts. -/
theorem w109_apply (z : Vec Ideal S1x512x4 .i32) (hlt hlt' : 1 < 32) (hs : S512x4.Slices ![0, 3] S512x1) (hb : S512x1.Broadcasts S512x512) (r n : Fin 512) :
    (maximumf (maximumf (k0_pay9 (F := Ideal) cols z) (sitofp .f32 (extui 32 (k0_pay10 (F := Ideal) cols z) hlt)))
        (sitofp .f32 (extui 32 (cmpi .eq (broadcastTo S512x512 (extractStridedSlice S512x1 ![0, 3] (k0_pay8 (F := Ideal) z) hs) hb) cols) hlt')) : FVec Ideal S512x512 .f32) (ix2 r n)
      = mh z r n := by
  unfold k0_pay9 k0_pay10 k0_pay8 mh
  show max (max (max (max _ _) _) _) _ = _
  refine congrArg₂ max (congrArg₂ max (congrArg₂ max (congrArg₂ max (zero_apply r n) ?_) ?_) ?_) ?_
  · exact (ind_apply _ 0 0 rfl _ _ _ _ r n).trans (congrArg (hot · n) (ids_apply z _ r 0))
  · exact (ind_apply _ 1 1 rfl _ _ _ _ r n).trans (congrArg (hot · n) (ids_apply z _ r 1))
  · exact (ind_apply _ 2 2 rfl _ _ _ _ r n).trans (congrArg (hot · n) (ids_apply z _ r 2))
  · exact (ind_apply _ 3 3 rfl _ _ _ _ r n).trans (congrArg (hot · n) (ids_apply z _ r 3))

/-- The literal 2.0 spread over the block. -/
theorem two_apply (r c : Fin 512) : (broadcast S512x512 (Scalar.ofBits (F := Ideal) .f32 0x40000000#32) : FVec Ideal S512x512 .f32) (ix2 r c) = two := rfl

/-- The larger of the two tables' distance blocks, at `(r, c)`. -/
theorem pay11_apply (z0 z1 z2 z3 : Vec Ideal S1x512x4 .i32) (r c : Fin 512) :
    k0_pay11 (F := Ideal) cols (k0_pay2 z0) (k0_pay6 cols (k0_pay3 z1) (k0_pay4 z1) (k0_pay5 z1)) (k0_pay7 cols z2) (k0_pay8 z3) (k0_pay9 cols z3) (k0_pay10 cols z3) (ix2 r c)
      = max (dist2 (mh z0) (mh z1) r c) (dist2 (mh z2) (mh z3) r c) := by
  unfold k0_pay11 dist2
  show max (_ + _ - _ * _) (_ + _ - _ * _) = _
  refine congrArg₂ max (congrArg₂ (· - ·) (congrArg₂ (· + ·) ?_ ?_) (congrArg₂ (· * ·) (two_apply r c) ?_))
    (congrArg₂ (· - ·) (congrArg₂ (· + ·) ?_ ?_) (congrArg₂ (· * ·) (two_apply r c) ?_))
  · exact (rowcol_apply _ _ _ _ _ _ r c).trans (Finset.sum_congr rfl fun n _ => pay2_apply z0 r n)
  · exact (colrow_apply _ _ _ _ _ _ _ r c).trans (Finset.sum_congr rfl fun n _ => pay6_apply z1 c n)
  · exact (inner_apply _ _ _ _ _ r c).trans (Finset.sum_congr rfl fun n _ => congrArg₂ (· * ·) (pay2_apply z0 r n) (pay6_apply z1 c n))
  · exact (rowcol_apply _ _ _ _ _ _ r c).trans (Finset.sum_congr rfl fun n _ => pay7_apply z2 r n)
  · exact (colrow_apply _ _ _ _ _ _ _ r c).trans (Finset.sum_congr rfl fun n _ => w109_apply z3 _ _ _ _ c n)
  · exact (inner_apply _ _ _ _ _ r c).trans (Finset.sum_congr rfl fun n _ => congrArg₂ (· * ·) (pay7_apply z2 r n) (w109_apply z3 _ _ _ _ c n))

/-! ## The padding blocks -/

/-- The row tile's padding column spread over the row: at `(r, c)` the entry of row `r`. -/
theorem pay13_apply (p : Vec Ideal S1x512x1 .f32) (r c : Fin 512) : k0_pay13 (F := Ideal) p (ix2 r c) = p (ix3 (0 : Fin 1) r (0 : Fin 1)) := by
  unfold k0_pay13
  exact (Cert.Lib.Column.broadcastTo_a1_ab_apply _ _ r c).trans (shapeCast_1ab_ab_apply p _ r (0 : Fin 1))

/-- The column tile's padding column laid as a row and spread down the columns: at `(r, c)` the entry of row `c`. -/
theorem pay12_apply (p : Vec Ideal S1x512x1 .f32) (hb : S1x512.Broadcasts S512x512) (r c : Fin 512) :
    (broadcastTo S512x512 (k0_pay12 (F := Ideal) p) hb : FVec Ideal S512x512 .f32) (ix2 r c) = p (ix3 (0 : Fin 1) c (0 : Fin 1)) := by
  unfold k0_pay12
  exact (broadcastTo_1b_ab_apply _ hb r c).trans ((transpose_ix2_apply _ _ (0 : Fin 1) c).trans (shapeCast_1ab_ab_apply p _ c (0 : Fin 1)))

/-! ## The stored value -/

theorem stored_apply (z0 z1 z2 z3 : Vec Ideal S1x512x4 .i32) (p4 p5 : Vec Ideal S1x512x1 .f32) (r c : Fin 512) :
    stored (F := Ideal) z0 z1 z2 z3 p4 p5 (ix3 (0 : Fin 1) r c)
      = max (dist2 (mh z0) (mh z1) r c) (dist2 (mh z2) (mh z3) r c) + max (p4 (ix3 (0 : Fin 1) r (0 : Fin 1))) (p5 (ix3 (0 : Fin 1) c (0 : Fin 1))) := by
  unfold stored k0_pay1
  refine (shapeCast_ab_1ab_apply _ _ (0 : Fin 1) r c).trans ?_
  show _ + max _ _ = _
  exact congrArg₂ (· + ·) (pay11_apply z0 z1 z2 z3 r c) (congrArg₂ max (pay13_apply p4 r c) (pay12_apply p5 _ r c))

end Cert.KernelPayload

end
-- ==== Proof.KernelValue.lean ====
/-
  The output array after the run of the idealized kernel, as one function of the argument arrays.

  Grid point `t` has coordinates `(b, qi, kj)`: batch `b`, row tile `qi`, column tile `kj`. Its row-tile windows read rows
  `512·qi + r` of batch `b`, its column-tile windows rows `512·kj + c`, and it writes back the `[1, 512, 512]` block of
  the output at `(b, 512·qi + r, 512·kj + c)`. With the body's arithmetic at an entry (`stored_apply`) the block point
  `t` writes back is the block of `G` there (`flushed_eq`); the 32 blocks tile the output array, so after the run the
  array is `G` of the arguments (`final`). The padding column the kernel reads is computed by the host operations
  before the region: `[indicator = 0]`, as a float, times the padding distance (`padcol_apply`).
-/
import proofs.«151109_j19963007992433_1_alg».proof.Proof.KernelIdealRun
import proofs.«151109_j19963007992433_1_alg».proof.Proof.KernelPayload
import Idealize.ShloMosaic.Lib.Pipeline.Value
import Idealize.ShloMosaic.Lib.StableHlo.Run

set_option maxRecDepth 16384

noncomputable section

namespace Cert.KernelValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand Cert.Spec Cert.KernelPayload

/-! ## One grid point, over plain blocks -/

/-- Row `r` of tile `q` of a 1024-row axis. -/
def row (q : Fin 2) (r : Fin 512) : Fin 1024 := ⟨q.val * 512 + r.val, by have := q.isLt; have := r.isLt; omega⟩

theorem mh_eq (zt : SZ.Idx → BitVec 32) (z : Vec Ideal S1x512x4 .i32) (b : Fin 8) (q : Fin 2)
    (h : ∀ (r : Fin 512) (d : Fin 4), z (ix3 (0 : Fin 1) r d) = zt (ix3 b (row q r) d)) (r n : Fin 512) :
    mh z r n = multiHot zt b (row q r) n := by
  unfold mh multiHot
  rw [h r 0, h r 1, h r 2, h r 3]

theorem dist2_eq (zt : SZ.Idx → BitVec 32) (z z' : Vec Ideal S1x512x4 .i32) (b : Fin 8) (q q' : Fin 2)
    (h : ∀ (r : Fin 512) (d : Fin 4), z (ix3 (0 : Fin 1) r d) = zt (ix3 b (row q r) d))
    (h' : ∀ (r : Fin 512) (d : Fin 4), z' (ix3 (0 : Fin 1) r d) = zt (ix3 b (row q' r) d)) (r c : Fin 512) :
    dist2 (mh z) (mh z') r c = Cert.Spec.dist zt b (row q r) (row q' c) := by
  unfold dist2 Cert.Spec.dist rowSum Cert.Spec.inner
  simp only [mh_eq zt z b q h, mh_eq zt z' b q' h']

/-- The value point `(b, qi, kj)` stores at `(0, r, c)` is `G` at `(b, 512·qi + r, 512·kj + c)`, when its six input blocks
    are the rows of the arrays the point's windows read. -/
theorem point_eq (zt zl : SZ.Idx → BitVec 32) (ind : SI.Idx → BitVec 32) (P : EReal)
    (z0 z1 z2 z3 : Vec Ideal S1x512x4 .i32) (p4 p5 : Vec Ideal S1x512x1 .f32) (b : Fin 8) (qi kj : Fin 2)
    (h0 : ∀ (r : Fin 512) (d : Fin 4), z0 (ix3 (0 : Fin 1) r d) = zt (ix3 b (row qi r) d))
    (h1 : ∀ (r : Fin 512) (d : Fin 4), z1 (ix3 (0 : Fin 1) r d) = zt (ix3 b (row kj r) d))
    (h2 : ∀ (r : Fin 512) (d : Fin 4), z2 (ix3 (0 : Fin 1) r d) = zl (ix3 b (row qi r) d))
    (h3 : ∀ (r : Fin 512) (d : Fin 4), z3 (ix3 (0 : Fin 1) r d) = zl (ix3 b (row kj r) d))
    (h4 : ∀ r : Fin 512, p4 (ix3 (0 : Fin 1) r (0 : Fin 1)) = padBit ind b (row qi r) * P)
    (h5 : ∀ r : Fin 512, p5 (ix3 (0 : Fin 1) r (0 : Fin 1)) = padBit ind b (row kj r) * P) (r c : Fin 512) :
    stored (F := Ideal) z0 z1 z2 z3 p4 p5 (ix3 (0 : Fin 1) r c) = G zt zl ind P (ix3 b (row qi r) (row kj c)) := by
  rw [stored_apply, dist2_eq zt z0 z1 b qi kj h0 h1, dist2_eq zl z2 z3 b qi kj h2 h3, h4 r, h5 c]
  rfl

/-! ## The padding column the host operations leave -/

variable (m : (ℓ : Loc nD τ sig) → Buf (Elt Ideal) ℓ) (ρ : Dev nD → PrngReg)

/-- The arguments on core `c`. -/
abbrev argT (c : Dev nD) : SZ.Idx → BitVec 32 := m ((c.tc : Thread nD τ).loc main_arg0)
abbrev argL (c : Dev nD) : SZ.Idx → BitVec 32 := m ((c.tc : Thread nD τ).loc main_arg1)
abbrev argI (c : Dev nD) : SI.Idx → BitVec 32 := m ((c.tc : Thread nD τ).loc main_arg2)
abbrev argP (c : Dev nD) : EReal := (m ((c.tc : Thread nD τ).loc main_arg3) : S_.Idx → EReal) ix0

/-- The padding column as the region finds it: the host operations' term of the indicator and the padding distance. -/
theorem V_v5 (c : Dev nD) : (V m c main_v5 : S8x1024x1.Idx → EReal)
    = broadcastInDim S8x1024x1 ![0, 1] bcast_S8x1024_S8x1024x1_0_1
        (mulf (F := Ideal) (uitofp (F := Ideal) .f32 (cmpi .eq (m ((c.tc : Thread nD τ).loc main_arg2)) (broadcastInDim S8x1024 ![] bcast_S_S8x1024 (constantI S_ 32 0#32))))
          (broadcastInDim S8x1024 ![] bcast_S_S8x1024 (m ((c.tc : Thread nD τ).loc main_arg3)))) := by
  dsimp only [V, hostOps0]; after_results

theorem padcol_apply (c : Dev nD) (b : Fin 8) (i : Fin 1024) :
    (V m c main_v5 : S8x1024x1.Idx → EReal) (ix3 b i (0 : Fin 1)) = padBit (argI m c) b i * argP m c := by
  rw [V_v5]
  refine (broadcastInDim_apply _ bcast_S8x1024_S8x1024x1_0_1 _ (ix3 b i (0 : Fin 1)) (ix2 b i) (fun a => ?_)).trans ?_
  · match a with
    | ⟨0, _⟩ => show b.val = if (8 : Nat) = 1 then 0 else b.val; rw [if_neg (by decide)]
    | ⟨1, _⟩ => show i.val = if (1024 : Nat) = 1 then 0 else i.val; rw [if_neg (by decide)]
  · show (uitofp (F := Ideal) .f32 _ (ix2 b i)) * (broadcastInDim S8x1024 ![] bcast_S_S8x1024 (m ((c.tc : Thread nD τ).loc main_arg3)) (ix2 b i)) = _
    refine congrArg₂ (· * ·) ?_ ?_
    · show bit (IntOp.cmpi .eq (m ((c.tc : Thread nD τ).loc main_arg2) (ix2 b i)) (broadcastInDim S8x1024 ![] bcast_S_S8x1024 (constantI S_ 32 0#32) (ix2 b i))) = _
      rw [broadcastInDim_apply _ bcast_S_S8x1024 (constantI S_ 32 0#32) (ix2 b i) ix0 (fun a => a.elim0)]
      rfl
    · exact broadcastInDim_apply _ bcast_S_S8x1024 _ (ix2 b i) ix0 (fun a => a.elim0)

/-! ## What each point writes back, and the array after the run -/

theorem hz3 : (![0, 0, 0] : Fin 3 → Nat) = fun _ => 0 := funext fun a => by fin_cases a <;> rfl

/-- The printed index maps, decided over the grid: a row-tile window moves with the output's batch and row-tile
    coordinates, a column-tile window with its batch and column-tile coordinates; the output's block indices stay in
    their ranges. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = win0_6.index t (2 : Fin 3) ∧ win0_1.index t (2 : Fin 3) = 0
    ∧ win0_2.index t (0 : Fin 3) = win0_6.index t (0 : Fin 3) ∧ win0_2.index t (1 : Fin 3) = win0_6.index t (1 : Fin 3) ∧ win0_2.index t (2 : Fin 3) = 0
    ∧ win0_3.index t (0 : Fin 3) = win0_6.index t (0 : Fin 3) ∧ win0_3.index t (1 : Fin 3) = win0_6.index t (2 : Fin 3) ∧ win0_3.index t (2 : Fin 3) = 0
    ∧ win0_4.index t (0 : Fin 3) = win0_6.index t (0 : Fin 3) ∧ win0_4.index t (1 : Fin 3) = win0_6.index t (1 : Fin 3) ∧ win0_4.index t (2 : Fin 3) = 0
    ∧ win0_5.index t (0 : Fin 3) = win0_6.index t (0 : Fin 3) ∧ win0_5.index t (1 : Fin 3) = win0_6.index t (2 : Fin 3) ∧ win0_5.index t (2 : Fin 3) = 0
    ∧ win0_6.index t (0 : Fin 3) ≤ 7 ∧ win0_6.index t (1 : Fin 3) ≤ 1 ∧ win0_6.index t (2 : Fin 3) ≤ 1 :=
  (by decide +kernel : ∀ t : Fin grid0.N, _)

/-- Every block of the output is some point's. -/
theorem idx_onto : ∀ (q0 : Fin 8) (q1 q2 : Fin 2), ∃ t : Fin cfg0.N, win0_6.index t = ![q0.val, q1.val, q2.val] :=
  (by decide +kernel : ∀ (q0 : Fin 8) (q1 q2 : Fin 2), ∃ t : Fin grid0.N, win0_6.index t = ![q0.val, q1.val, q2.val])

/-- The result as a function of core `c`'s arguments. -/
abbrev Gk (c : Dev nD) : S8x1024x1024.Idx → EReal := G (argT m c) (argL m c) (argI m c) (argP m c)

/-- What point `t` writes back is block `t` of `G` of the arguments. -/
theorem flushed_eq (c : Dev nD) (t : Fin cfg0.N) :
    (dats m 0 c).flushed 6 t = ((cfg0.win 6).blk t).view.read (Elt Ideal) (Gk m c) := by
  show (cfg0.win 6).cut (grid0.coords t) ((dats m 0 c).after 6 t) = _
  rw [after6]
  unfold blockOut
  rw [View.canon_unit_zero hz3]
  simp only [View.ld_unit_zero (S := S1x512x4) hz3, View.ld_unit_zero (S := S1x512x1) hz3]
  obtain ⟨e00, e01, e02, e10, e11, e12, e20, e21, e22, e30, e31, e32, e40, e41, e42, e50, e51, e52, l0, l1, l2⟩ := idx_facts t
  let b : Fin 8 := ⟨win0_6.index t (0 : Fin 3), by omega⟩
  let qi : Fin 2 := ⟨win0_6.index t (1 : Fin 3), by omega⟩
  let kj : Fin 2 := ⟨win0_6.index t (2 : Fin 3), by omega⟩
  have hb0 : ∀ (r : Fin 512) (d : Fin 4), iblk m c 0 t (ix3 (0 : Fin 1) r d) = V m c main_arg0 (ix3 b (row qi r) d) := fun r d => by
    show V m c main_arg0 (((cfg0.win 0).blk t).view.emb (ix3 (0 : Fin 1) r d)) = _
    refine congrArg _ (funext fun a => Fin.ext ?_)
    match a with
    | ⟨0, _⟩ => show win0_0.index t (0 : Fin 3) * 1 + 1 * 0 = win0_6.index t (0 : Fin 3); omega
    | ⟨1, _⟩ => show win0_0.index t (1 : Fin 3) * 512 + 1 * r.val = win0_6.index t (1 : Fin 3) * 512 + r.val; omega
    | ⟨2, _⟩ => show win0_0.index t (2 : Fin 3) * 4 + 1 * d.val = d.val; omega
  have hb1 : ∀ (r : Fin 512) (d : Fin 4), iblk m c 1 t (ix3 (0 : Fin 1) r d) = V m c main_arg0 (ix3 b (row kj r) d) := fun r d => by
    show V m c main_arg0 (((cfg0.win 1).blk t).view.emb (ix3 (0 : Fin 1) r d)) = _
    refine congrArg _ (funext fun a => Fin.ext ?_)
    match a with
    | ⟨0, _⟩ => show win0_1.index t (0 : Fin 3) * 1 + 1 * 0 = win0_6.index t (0 : Fin 3); omega
    | ⟨1, _⟩ => show win0_1.index t (1 : Fin 3) * 512 + 1 * r.val = win0_6.index t (2 : Fin 3) * 512 + r.val; omega
    | ⟨2, _⟩ => show win0_1.index t (2 : Fin 3) * 4 + 1 * d.val = d.val; omega
  have hb2 : ∀ (r : Fin 512) (d : Fin 4), iblk m c 2 t (ix3 (0 : Fin 1) r d) = V m c main_arg1 (ix3 b (row qi r) d) := fun r d => by
    show V m c main_arg1 (((cfg0.win 2).blk t).view.emb (ix3 (0 : Fin 1) r d)) = _
    refine congrArg _ (funext fun a => Fin.ext ?_)
    match a with
    | ⟨0, _⟩ => show win0_2.index t (0 : Fin 3) * 1 + 1 * 0 = win0_6.index t (0 : Fin 3); omega
    | ⟨1, _⟩ => show win0_2.index t (1 : Fin 3) * 512 + 1 * r.val = win0_6.index t (1 : Fin 3) * 512 + r.val; omega
    | ⟨2, _⟩ => show win0_2.index t (2 : Fin 3) * 4 + 1 * d.val = d.val; omega
  have hb3 : ∀ (r : Fin 512) (d : Fin 4), iblk m c 3 t (ix3 (0 : Fin 1) r d) = V m c main_arg1 (ix3 b (row kj r) d) := fun r d => by
    show V m c main_arg1 (((cfg0.win 3).blk t).view.emb (ix3 (0 : Fin 1) r d)) = _
    refine congrArg _ (funext fun a => Fin.ext ?_)
    match a with
    | ⟨0, _⟩ => show win0_3.index t (0 : Fin 3) * 1 + 1 * 0 = win0_6.index t (0 : Fin 3); omega
    | ⟨1, _⟩ => show win0_3.index t (1 : Fin 3) * 512 + 1 * r.val = win0_6.index t (2 : Fin 3) * 512 + r.val; omega
    | ⟨2, _⟩ => show win0_3.index t (2 : Fin 3) * 4 + 1 * d.val = d.val; omega
  have hb4 : ∀ (r : Fin 512) (d : Fin 1), iblk m c 4 t (ix3 (0 : Fin 1) r d) = V m c main_v5 (ix3 b (row qi r) d) := fun r d => by
    show V m c main_v5 (((cfg0.win 4).blk t).view.emb (ix3 (0 : Fin 1) r d)) = _
    refine congrArg _ (funext fun a => Fin.ext ?_)
    match a with
    | ⟨0, _⟩ => show win0_4.index t (0 : Fin 3) * 1 + 1 * 0 = win0_6.index t (0 : Fin 3); omega
    | ⟨1, _⟩ => show win0_4.index t (1 : Fin 3) * 512 + 1 * r.val = win0_6.index t (1 : Fin 3) * 512 + r.val; omega
    | ⟨2, _⟩ => show win0_4.index t (2 : Fin 3) * 1 + 1 * d.val = d.val; omega
  have hb5 : ∀ (r : Fin 512) (d : Fin 1), iblk m c 5 t (ix3 (0 : Fin 1) r d) = V m c main_v5 (ix3 b (row kj r) d) := fun r d => by
    show V m c main_v5 (((cfg0.win 5).blk t).view.emb (ix3 (0 : Fin 1) r d)) = _
    refine congrArg _ (funext fun a => Fin.ext ?_)
    match a with
    | ⟨0, _⟩ => show win0_5.index t (0 : Fin 3) * 1 + 1 * 0 = win0_6.index t (0 : Fin 3); omega
    | ⟨1, _⟩ => show win0_5.index t (1 : Fin 3) * 512 + 1 * r.val = win0_6.index t (2 : Fin 3) * 512 + r.val; omega
    | ⟨2, _⟩ => show win0_5.index t (2 : Fin 3) * 1 + 1 * d.val = d.val; omega
  refine funext fun (y : S1x512x512.Idx) => ?_
  obtain ⟨r, cc, rfl⟩ : ∃ (r cc : Fin 512), y = ix3 (0 : Fin 1) r cc := ⟨y 1, y 2, by
    funext a; apply Fin.ext
    match a with
    | ⟨0, _⟩ => show (y 0).val = 0; exact Nat.lt_one_iff.mp (show (y 0).val < 1 from (y 0).isLt)
    | ⟨1, _⟩ => rfl
    | ⟨2, _⟩ => rfl⟩
  have hemb : ((cfg0.win 6).blk t).view.emb (ix3 (0 : Fin 1) r cc) = ix3 b (row qi r) (row kj cc) := by
    funext a; apply Fin.ext
    match a with
    | ⟨0, _⟩ => show win0_6.index t (0 : Fin 3) * 1 + 1 * 0 = win0_6.index t (0 : Fin 3); omega
    | ⟨1, _⟩ => show win0_6.index t (1 : Fin 3) * 512 + 1 * r.val = win0_6.index t (1 : Fin 3) * 512 + r.val; omega
    | ⟨2, _⟩ => show win0_6.index t (2 : Fin 3) * 512 + 1 * cc.val = win0_6.index t (2 : Fin 3) * 512 + cc.val; omega
  show stored (F := Ideal) (iblk m c 0 t) (iblk m c 1 t) (iblk m c 2 t) (iblk m c 3 t) (iblk m c 4 t) (iblk m c 5 t) (ix3 (0 : Fin 1) r cc)
    = Gk m c (((cfg0.win 6).blk t).view.emb (ix3 (0 : Fin 1) r cc))
  rw [hemb]
  refine point_eq (argT m c) (argL m c) (argI m c) (argP m c) (iblk m c 0 t) (iblk m c 1 t) (iblk m c 2 t) (iblk m c 3 t) (iblk m c 4 t) (iblk m c 5 t)
    b qi kj ?_ ?_ ?_ ?_ ?_ ?_ r cc
  · exact fun r d => (hb0 r d).trans (congrFun (V_main_arg0 m c) _)
  · exact fun r d => (hb1 r d).trans (congrFun (V_main_arg0 m c) _)
  · exact fun r d => (hb2 r d).trans (congrFun (V_main_arg1 m c) _)
  · exact fun r d => (hb3 r d).trans (congrFun (V_main_arg1 m c) _)
  · exact fun r => (hb4 r 0).trans (padcol_apply m c b (row qi r))
  · exact fun r => (hb5 r 0).trans (padcol_apply m c b (row kj r))

/-- An index of the output array is in point `t`'s block iff each coordinate is in the block's range on its axis. -/
theorem mem_blk (t : Fin cfg0.N) (i : S8x1024x1024.Idx) :
    i ∈ ((cfg0.win 6).blk t).view.set ↔ ∀ a : Fin 3, win0_6.index t a * S1x512x512.size a ≤ (i a).val ∧ (i a).val < win0_6.index t a * S1x512x512.size a + S1x512x512.size a := by
  show i ∈ ((View.whole main_v6).slice (win0_6.rect t)).set ↔ _
  rw [View.set_slice_whole, Rect.mem_set_unit]
  exact Iff.rfl

/-- The 32 blocks tile the output array. -/
theorem cover (i : S8x1024x1024.Idx) : ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩ ⟨(i 2).val / 512, by omega⟩
  have q0 : win0_6.index t (0 : Fin 3) = (i 0).val := congrFun ht 0
  have q1 : win0_6.index t (1 : Fin 3) = (i 1).val / 512 := congrFun ht 1
  have q2 : win0_6.index t (2 : Fin 3) = (i 2).val / 512 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 512 ≤ (i 2).val ∧ (i 2).val < win0_6.index t (2 : Fin 3) * 512 + 512; omega

/-- The output array after the run is `G` of the arguments. -/
theorem final (c : Dev nD) : (dats m 0 c).arrAt 6 cfg0.N = Gk m c :=
  (dats m 0 c).arrAt_eq_of_cover 6 (Gk m c) (fun t _ => flushed_eq m c t) (cover)

/-- The run, read: the result array at `G` of the arguments, the arguments unchanged. -/
theorem run : θ_run defs (onTc (τ := τ) (main (F := Ideal))) ⟨m, fun _ => 0, ρ⟩ fun r => ∀ c : Dev nD,
      r.2.mem ((c.tc : Thread nD τ).loc main_v6) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 6).trans (final m c), args_kept m r h c⟩) (run_main m ρ)

end Cert.KernelValue

end
-- ==== Proof.RefValue.lean ====
/-
  The reference program's result as the specification's function `Gref` of the four argument arrays.

  Each id table is one-hot encoded against the columns 0..512 (the comparison bit converted to a number), the maximum
  over the four id positions is taken from minus infinity, and the 513 columns are cut to the first 512: at (b, i, n)
  this is the multi-hot entry. Its row sums (a sum from 0.0) and its batched product with itself give
  s i + s j - 2 · ⟨row i, row j⟩, the distance; the result is the larger of the two tables' distances plus the larger
  of the two padding indicators times the padding distance. Every step is read at an index written with explicit
  coordinates, one table after the other.
-/
import proofs.«151109_j19963007992433_1_alg».proof.Proof.Gen.ReferenceIdeal.Read
import proofs.«151109_j19963007992433_1_alg».proof.Proof.Spec
import Idealize.ShloMosaic.PureOps.Reduce
import Idealize.ShloMosaic.PureOps.Ideal.Laws
import Idealize.ShloMosaic.Lib.ValueIdx

noncomputable section

namespace Cert.RefValue

open Cert.ReferenceIdeal Cert.ReferenceIdeal.Gen Cert.ReferenceIdeal.Read Idealize.ShloMosaic Idealize.ShloMosaic.ValueIdx Cert.Spec

/-- A fold of a commutative, associative operation over four values, written out in order from the initial value. -/
theorem fold_univ_fin4 {α : Type} (f : α → α → α) [Std.Commutative f] [Std.Associative f] (b : α) (g : Fin 4 → α) :
    (Finset.univ : Finset (Fin 4)).fold f b g = f (f (f (f b (g 0)) (g 1)) (g 2)) (g 3) := by
  simp only [Fin.univ_succ, Finset.fold_cons, Finset.fold_map, Finset.univ_unique, Finset.fold_singleton]
  show f (g 0) (f (g 1) (f (g 2) (f (g 3) b))) = _
  ac_rfl

/-- The word 0xFF800000 is minus infinity. -/
theorem ofBits_negInf : Ideal.ofBits .f32 0xFF800000#32 = (⊥ : EReal) := by simp [Ideal.ofBits, Ideal.ieee]

/-- The reduced index (b, i, n) with id position k put back on axis 2 is (b, i, k, n). -/
theorem lift_ix3 (h : S8x1024x4x513.Reduces [2] S8x1024x513) (b : Fin 8) (i : Fin 1024) (n : Fin 513)
    (k : Fin (S8x1024x4x513.size 2)) : h.lift (ix3 b i n) k = ix4 b i (⟨k.val, k.isLt⟩ : Fin 4) n :=
  funext fun c => Fin.ext (by match c with | ⟨0, _⟩ => rfl | ⟨1, _⟩ => rfl | ⟨2, _⟩ => rfl | ⟨3, _⟩ => rfl)

/-! ## The first id table -/

/-- The one-hot array of the first table at (b, i, k, n): the indicator that id k of row (b, i) is n. -/
theorem oneHot_t (zt : (⟨S8x1024x4, .i32⟩ : BufTy).Contents (Elt Ideal)) (b : Fin 8) (i : Fin 1024) (k : Fin 4) (n : Fin 513) :
    val_main_v0 (F := Ideal) zt (ix4 b i k n) = bit (IntOp.cmpi .eq (zt (ix3 b i k)) (BitVec.ofNat 32 n.val)) := by
  have e : idx_main_call0_v0 (idx_main_call0_v2 (ix4 b i k n)) = ix3 b i k :=
    funext fun a => Fin.ext (by match a with | ⟨0, _⟩ => rfl | ⟨1, _⟩ => rfl | ⟨2, _⟩ => rfl)
  rw [val_main_v0_apply, val_main_call0_v4_apply, val_main_call0_v2_apply, val_main_call0_v0_apply, val_main_call0_v3_apply,
    val_main_call0_v1_apply, e]
  rfl

/-- The sliced maximum over the four id positions, from minus infinity, is the multi-hot entry. -/
theorem multiHot_t (zt : (⟨S8x1024x4, .i32⟩ : BufTy).Contents (Elt Ideal)) (b : Fin 8) (i : Fin 1024) (n : Fin 512) :
    val_main_v2 (F := Ideal) zt (ix3 b i n) = multiHot zt b i n := by
  have hR : S8x1024x4x513.Reduces [2] S8x1024x513 := by decide
  have e : idx_main_v2 (ix3 b i n) = ix3 b i (⟨n.val, by have := n.isLt; omega⟩ : Fin 513) :=
    funext fun a => Fin.ext (by match a with | ⟨0, _⟩ => rfl | ⟨1, _⟩ => rfl | ⟨2, _⟩ => rfl)
  have hf : (val_main_v0 (F := Ideal) zt ∘ hR.lift (ix3 b i (⟨n.val, by have := n.isLt; omega⟩ : Fin 513)))
      = fun k : Fin (S8x1024x4x513.size 2) =>
          bit (IntOp.cmpi .eq (zt (ix3 b i (⟨k.val, k.isLt⟩ : Fin 4))) (BitVec.ofNat 32 n.val)) :=
    funext fun k => by rw [Function.comp_apply, lift_ix3, oneHot_t]
  rw [val_main_v2_apply, e]
  unfold val_main_v1
  rw [Host.reduce_eq_fold_single FloatOps.maximumf _ _ reducesTo_S8x1024x4x513_S8x1024x513_d2 hR h_S_, hf]
  refine Eq.trans (fold_univ_fin4 _ _ _) ?_
  show max (max (max (max (Ideal.ofBits .f32 0xFF800000#32) (hot (zt (ix3 b i (0 : Fin 4))) n)) (hot (zt (ix3 b i (1 : Fin 4))) n))
      (hot (zt (ix3 b i (2 : Fin 4))) n)) (hot (zt (ix3 b i (3 : Fin 4))) n) = multiHot zt b i n
  rw [ofBits_negInf]
  exact multiHot_eq_bot zt b i n

/-- The row sum: the sum from 0.0 over the 512 columns of the sliced multi-hot array. -/
theorem rowSum_t (zt : (⟨S8x1024x4, .i32⟩ : BufTy).Contents (Elt Ideal)) (b : Fin 8) (i : Fin 1024) :
    val_main_v6 (F := Ideal) zt (ix2 b i) = rowSum zt b i := by
  rw [val_main_v6_apply, val_main_cst_1_apply, Ideal.ofBits_def, Ideal.ofBits_zero_f32, zero_add]
  unfold rowSum
  refine Finset.sum_congr rfl fun k _ => ?_
  have e : idx_main_v6 (ix2 b i) k = ix3 b i k :=
    funext fun a => Fin.ext (by match a with | ⟨0, _⟩ => rfl | ⟨1, _⟩ => rfl | ⟨2, _⟩ => rfl)
  rw [e, multiHot_t]

/-- The batched product of the sliced multi-hot array with itself at (b, i, j) is the inner product of rows i and j. -/
theorem inner_t (zt : (⟨S8x1024x4, .i32⟩ : BufTy).Contents (Elt Ideal)) (b : Fin 8) (i j : Fin 1024) :
    val_main_v7 (F := Ideal) zt (ix3 b i j) = Cert.Spec.inner zt b i j := by
  rw [val_main_v7_apply]
  unfold Cert.Spec.inner
  refine Finset.sum_congr rfl fun k _ => ?_
  have el : lidx_main_v7 (ix3 b i j) k = ix3 b i k :=
    funext fun a => Fin.ext (by match a with | ⟨0, _⟩ => rfl | ⟨1, _⟩ => rfl | ⟨2, _⟩ => rfl)
  have er : ridx_main_v7 (ix3 b i j) k = ix3 b j k :=
    funext fun a => Fin.ext (by match a with | ⟨0, _⟩ => rfl | ⟨1, _⟩ => rfl | ⟨2, _⟩ => rfl)
  rw [el, er, multiHot_t, multiHot_t]

/-- The distance table: s i + s j - 2 · ⟨row i, row j⟩. -/
theorem dist_t (zt : (⟨S8x1024x4, .i32⟩ : BufTy).Contents (Elt Ideal)) (b : Fin 8) (i j : Fin 1024) :
    val_main_v15 (F := Ideal) zt (ix3 b i j) = dist zt b i j := by
  have ei : idx_main_v8 (idx_main_v10 (ix3 b i j)) = ix2 b i :=
    funext fun a => Fin.ext (by match a with | ⟨0, _⟩ => rfl | ⟨1, _⟩ => rfl)
  have ej : idx_main_v9 (idx_main_v11 (ix3 b i j)) = ix2 b j :=
    funext fun a => Fin.ext (by match a with | ⟨0, _⟩ => rfl | ⟨1, _⟩ => rfl)
  rw [val_main_v15_apply, val_main_v12_apply, val_main_v14_apply, val_main_v10_apply, val_main_v8_apply, val_main_v11_apply,
    val_main_v9_apply, val_main_v13_apply, val_main_cst_2_apply, ei, ej, rowSum_t, rowSum_t, inner_t]
  rfl

/-! ## The second id table -/

/-- The one-hot array of the second table at (b, i, k, n): the indicator that id k of row (b, i) is n. -/
theorem oneHot_l (zl : (⟨S8x1024x4, .i32⟩ : BufTy).Contents (Elt Ideal)) (b : Fin 8) (i : Fin 1024) (k : Fin 4) (n : Fin 513) :
    val_main_v3 (F := Ideal) zl (ix4 b i k n) = bit (IntOp.cmpi .eq (zl (ix3 b i k)) (BitVec.ofNat 32 n.val)) := by
  have e : idx_main_call1_v0 (idx_main_call1_v2 (ix4 b i k n)) = ix3 b i k :=
    funext fun a => Fin.ext (by match a with | ⟨0, _⟩ => rfl | ⟨1, _⟩ => rfl | ⟨2, _⟩ => rfl)
  rw [val_main_v3_apply, val_main_call1_v4_apply, val_main_call1_v2_apply, val_main_call1_v0_apply, val_main_call1_v3_apply,
    val_main_call1_v1_apply, e]
  rfl

/-- The sliced maximum over the four id positions, from minus infinity, is the multi-hot entry. -/
theorem multiHot_l (zl : (⟨S8x1024x4, .i32⟩ : BufTy).Contents (Elt Ideal)) (b : Fin 8) (i : Fin 1024) (n : Fin 512) :
    val_main_v5 (F := Ideal) zl (ix3 b i n) = multiHot zl b i n := by
  have hR : S8x1024x4x513.Reduces [2] S8x1024x513 := by decide
  have e : idx_main_v5 (ix3 b i n) = ix3 b i (⟨n.val, by have := n.isLt; omega⟩ : Fin 513) :=
    funext fun a => Fin.ext (by match a with | ⟨0, _⟩ => rfl | ⟨1, _⟩ => rfl | ⟨2, _⟩ => rfl)
  have hf : (val_main_v3 (F := Ideal) zl ∘ hR.lift (ix3 b i (⟨n.val, by have := n.isLt; omega⟩ : Fin 513)))
      = fun k : Fin (S8x1024x4x513.size 2) =>
          bit (IntOp.cmpi .eq (zl (ix3 b i (⟨k.val, k.isLt⟩ : Fin 4))) (BitVec.ofNat 32 n.val)) :=
    funext fun k => by rw [Function.comp_apply, lift_ix3, oneHot_l]
  rw [val_main_v5_apply, e]
  unfold val_main_v4
  rw [Host.reduce_eq_fold_single FloatOps.maximumf _ _ reducesTo_S8x1024x4x513_S8x1024x513_d2 hR h_S_, hf]
  refine Eq.trans (fold_univ_fin4 _ _ _) ?_
  show max (max (max (max (Ideal.ofBits .f32 0xFF800000#32) (hot (zl (ix3 b i (0 : Fin 4))) n)) (hot (zl (ix3 b i (1 : Fin 4))) n))
      (hot (zl (ix3 b i (2 : Fin 4))) n)) (hot (zl (ix3 b i (3 : Fin 4))) n) = multiHot zl b i n
  rw [ofBits_negInf]
  exact multiHot_eq_bot zl b i n

/-- The row sum: the sum from 0.0 over the 512 columns of the sliced multi-hot array. -/
theorem rowSum_l (zl : (⟨S8x1024x4, .i32⟩ : BufTy).Contents (Elt Ideal)) (b : Fin 8) (i : Fin 1024) :
    val_main_v16 (F := Ideal) zl (ix2 b i) = rowSum zl b i := by
  rw [val_main_v16_apply, val_main_cst_3_apply, Ideal.ofBits_def, Ideal.ofBits_zero_f32, zero_add]
  unfold rowSum
  refine Finset.sum_congr rfl fun k _ => ?_
  have e : idx_main_v16 (ix2 b i) k = ix3 b i k :=
    funext fun a => Fin.ext (by match a with | ⟨0, _⟩ => rfl | ⟨1, _⟩ => rfl | ⟨2, _⟩ => rfl)
  rw [e, multiHot_l]

/-- The batched product of the sliced multi-hot array with itself at (b, i, j) is the inner product of rows i and j. -/
theorem inner_l (zl : (⟨S8x1024x4, .i32⟩ : BufTy).Contents (Elt Ideal)) (b : Fin 8) (i j : Fin 1024) :
    val_main_v17 (F := Ideal) zl (ix3 b i j) = Cert.Spec.inner zl b i j := by
  rw [val_main_v17_apply]
  unfold Cert.Spec.inner
  refine Finset.sum_congr rfl fun k _ => ?_
  have el : lidx_main_v17 (ix3 b i j) k = ix3 b i k :=
    funext fun a => Fin.ext (by match a with | ⟨0, _⟩ => rfl | ⟨1, _⟩ => rfl | ⟨2, _⟩ => rfl)
  have er : ridx_main_v17 (ix3 b i j) k = ix3 b j k :=
    funext fun a => Fin.ext (by match a with | ⟨0, _⟩ => rfl | ⟨1, _⟩ => rfl | ⟨2, _⟩ => rfl)
  rw [el, er, multiHot_l, multiHot_l]

/-- The distance table: s i + s j - 2 · ⟨row i, row j⟩. -/
theorem dist_l (zl : (⟨S8x1024x4, .i32⟩ : BufTy).Contents (Elt Ideal)) (b : Fin 8) (i j : Fin 1024) :
    val_main_v25 (F := Ideal) zl (ix3 b i j) = dist zl b i j := by
  have ei : idx_main_v18 (idx_main_v20 (ix3 b i j)) = ix2 b i :=
    funext fun a => Fin.ext (by match a with | ⟨0, _⟩ => rfl | ⟨1, _⟩ => rfl)
  have ej : idx_main_v19 (idx_main_v21 (ix3 b i j)) = ix2 b j :=
    funext fun a => Fin.ext (by match a with | ⟨0, _⟩ => rfl | ⟨1, _⟩ => rfl)
  rw [val_main_v25_apply, val_main_v22_apply, val_main_v24_apply, val_main_v20_apply, val_main_v18_apply, val_main_v21_apply,
    val_main_v19_apply, val_main_v23_apply, val_main_cst_4_apply, ei, ej, rowSum_l, rowSum_l, inner_l]
  rfl

/-! ## The padding term and the result -/

/-- The padding term: the larger of the two padding indicators, times the padding distance. -/
theorem pad_apply (ind : (⟨S8x1024, .i32⟩ : BufTy).Contents (Elt Ideal)) (P : (⟨S_, .f32⟩ : BufTy).Contents (Elt Ideal))
    (b : Fin 8) (i j : Fin 1024) :
    val_main_v36 (F := Ideal) ind P (ix3 b i j) = max (padBit ind b i) (padBit ind b j) * P ix0 := by
  have ei : idx_main_v30 (idx_main_v32 (ix3 b i j)) = ix2 b i :=
    funext fun a => Fin.ext (by match a with | ⟨0, _⟩ => rfl | ⟨1, _⟩ => rfl)
  have ej : idx_main_v31 (idx_main_v33 (ix3 b i j)) = ix2 b j :=
    funext fun a => Fin.ext (by match a with | ⟨0, _⟩ => rfl | ⟨1, _⟩ => rfl)
  rw [val_main_v36_apply, val_main_v34_apply, val_main_v32_apply, val_main_v30_apply, val_main_v33_apply, val_main_v31_apply,
    val_main_v35_apply, ei, ej, val_main_v29_apply, val_main_v29_apply, val_main_v28_apply, val_main_v28_apply,
    val_main_v27_apply, val_main_v27_apply, val_main_c_apply]
  rfl

/-- The reference program's result is the specification's function of the four arguments. -/
theorem ref_eq (zt zl : (⟨Cert.ReferenceIdeal.S8x1024x4, .i32⟩ : BufTy).Contents (Elt Ideal)) (ind : (⟨Cert.ReferenceIdeal.S8x1024, .i32⟩ : BufTy).Contents (Elt Ideal)) (P : (⟨Cert.ReferenceIdeal.S_, .f32⟩ : BufTy).Contents (Elt Ideal)) :
    Cert.ReferenceIdeal.Read.val_main_v37 (F := Ideal) zt zl ind P = Cert.Spec.Gref zt zl ind (P Idealize.ShloMosaic.ValueIdx.ix0) := by
  funext o
  obtain ⟨b, i, j, rfl⟩ : ∃ b i j, o = ix3 b i j := ⟨o 0, o 1, o 2, eq_ix3 o⟩
  rw [val_main_v37_apply, val_main_v26_apply, dist_t, dist_l, pad_apply]
  rfl

end Cert.RefValue

end
-- ==== Proof.PreDecode.lean ====
/-
  What the precondition says of the padding distance: the printed predicate holds exactly when the scalar is
  finite (`|P| < +∞`) and nonnegative (`P ≥ 0`), so at the ideal values `P` is a real number `p` with `0 ≤ p`. This is the
  one place the proof uses the precondition: it is what makes the kernel's `max (e·P) (e'·P)` and the reference's
  `max e e' · P` the same number.
-/
import proofs.«151109_j19963007992433_1_alg».proof.Pre_finite_inputs
import proofs.«151109_j19963007992433_1_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.PreDecode

open Idealize.ShloMosaic Idealize.ShloMosaic.ValueIdx Cert.Pre_finite_inputs

instance : Subsingleton S_.Idx := ⟨fun a b => funext fun d => d.elim0⟩

/-- An extended real whose absolute value is below `+∞` and which is at least 0 is a nonnegative real. -/
theorem real_nonneg_of (x : EReal)
    (h1 : Ideal.cmp .olt (max x (-x)) (Ideal.ofBits .f32 0x7F800000#32) = 1#1)
    (h2 : Ideal.cmp .oge x (Ideal.ofBits .f32 0x00000000#32) = 1#1) : ∃ p : ℝ, x = (p : EReal) ∧ 0 ≤ p := by
  have e1 : Ideal.ofBits .f32 0x7F800000#32 = ⊤ := by simp [Ideal.ofBits, Ideal.ieee]
  rw [e1] at h1
  rw [Ideal.ofBits_zero_f32] at h2
  have g1 : max x (-x) < ⊤ := by
    by_contra hn
    have : decide (max x (-x) < ⊤) = false := decide_eq_false hn
    simp only [Ideal.cmp, this] at h1
    exact absurd h1 (by decide)
  have g2 : (0 : EReal) ≤ x := by
    by_contra hn
    have : decide ((0 : EReal) ≤ x) = false := decide_eq_false hn
    simp only [Ideal.cmp, this] at h2
    exact absurd h2 (by decide)
  induction x using EReal.rec with
  | bot => exact absurd g2 (by simp)
  | coe p => exact ⟨p, rfl, EReal.coe_nonneg.mp g2⟩
  | top => exact absurd g1 (by simp)

/-- Under the precondition the padding distance is a nonnegative real. -/
theorem pad_real_nonneg (a0 a1 : IVec S8x1024x4 32) (a2 : IVec S8x1024 32) (P : FVec Ideal S_ .f32)
    (h : fn (F := Ideal) a0 a1 a2 P = fun _ => 1#1) : ∃ p : ℝ, P ix0 = (p : EReal) ∧ 0 ≤ p := by
  have h0 := congrFun h ix0
  dsimp only [fn] at h0
  obtain ⟨h1, h2⟩ := IntOp.andi_eq_one.mp h0
  have f1 := Host.reduce_andi_all _ _ _ _ ix0 h1 ix0
  have f2 := Host.reduce_andi_all _ _ _ _ ix0 h2 ix0
  exact real_nonneg_of (P ix0) f1 f2

end Cert.PreDecode

end
-- ==== Proof.lean ====
/-
  The certificate of one kernel against its reference: a fused "tree-position distance" kernel and its jnp reference.

  Both programs take two id tables `i32[8, 1024, 4]`, an indicator `i32[8, 1024]` and a padding distance `f32[]`. Each row
  of a table is encoded as a multi-hot vector over 512 node columns; the distance of rows `i` and `j` is
  `s i + s j - 2 · ⟨row i, row j⟩`; the result at `(b, i, j)` is the larger of the two tables' distances plus a padding
  term. The kernel tiles the `[1024, 1024]` result of each batch into four `[512, 512]` blocks over a grid of 32 points and
  computes the inner products as matrix products into zero; the reference does the same on whole arrays. At the ideal
  values a change of float format is the identity and every sum is exact, so the two agree entry by entry up to the
  padding term: the kernel adds `max (e i · P) (e j · P)`, the reference `max (e i) (e j) · P`, where `e` is the 0/1
  padding indicator and `P` the padding distance. These are equal exactly for `P ≥ 0`, which the precondition states
  (with `P` finite); `Spec.G_eq_Gref` is that law and the one use of the precondition.

  The three frames: each kernel program runs its seven host operations and then the region at every grid point
  (`Hand.frame`, the same text at the word level and at the ideal values); the reference is host operations only.
  The ledger of the idealization is empty, so `preserves` is `True`.
-/
import proofs.«151109_j19963007992433_1_alg».proof.Defs
import proofs.«151109_j19963007992433_1_alg».proof.Proof.Gen.Kernel
import proofs.«151109_j19963007992433_1_alg».proof.Proof.Gen.Kernel.Skeleton
import proofs.«151109_j19963007992433_1_alg».proof.Proof.Gen.Kernel.Launch
import proofs.«151109_j19963007992433_1_alg».proof.Proof.Gen.Kernel.Points
import proofs.«151109_j19963007992433_1_alg».proof.Proof.Gen.KernelIdeal
import proofs.«151109_j19963007992433_1_alg».proof.Proof.Gen.KernelIdeal.Skeleton
import proofs.«151109_j19963007992433_1_alg».proof.Proof.Gen.KernelIdeal.Launch
import proofs.«151109_j19963007992433_1_alg».proof.Proof.Gen.KernelIdeal.Points
import proofs.«151109_j19963007992433_1_alg».proof.Proof.Gen.ReferenceIdeal
import proofs.«151109_j19963007992433_1_alg».proof.Proof.Gen.Pre_finite_inputs
import proofs.«151109_j19963007992433_1_alg».proof.Proof.Gen.ReferenceIdeal.Run
import proofs.«151109_j19963007992433_1_alg».proof.Proof.Gen.ReferenceIdeal.Read
import proofs.«151109_j19963007992433_1_alg».proof.Proof.KernelRun
import proofs.«151109_j19963007992433_1_alg».proof.Proof.KernelIdealRun
import proofs.«151109_j19963007992433_1_alg».proof.Proof.KernelValue
import proofs.«151109_j19963007992433_1_alg».proof.Proof.RefValue
import proofs.«151109_j19963007992433_1_alg».proof.Proof.PreDecode
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On core `c`, from memories agreeing on the arguments and under the precondition, the reference's result term is the
    kernel's result: `Gref` of the arguments, which for a nonnegative real padding distance is `G` of them. -/
theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v37 (F := Ideal) m' c = Cert.KernelValue.Gk m c := by
  obtain ⟨p, hp, hp0⟩ := Cert.PreDecode.pad_real_nonneg _ _ _ _ (hpre c)
  refine (Cert.ReferenceIdeal.Read.val_main_v37_eq (F := Ideal) m' c).trans ?_
  rw [h0, h1, h2, h3]
  refine (Cert.RefValue.ref_eq _ _ _ _).trans ?_
  have e : Cert.KernelValue.Gk m c = Cert.Spec.G (Cert.KernelValue.argT m c) (Cert.KernelValue.argL m c) (Cert.KernelValue.argI m c) ((p : ℝ) : EReal) :=
    congrArg (Cert.Spec.G (Cert.KernelValue.argT m c) (Cert.KernelValue.argL m c) (Cert.KernelValue.argI m c)) hp
  rw [e, Cert.Spec.G_eq_Gref _ _ _ p hp0]
  exact congrArg (Cert.Spec.Gref (Cert.KernelValue.argT m c) (Cert.KernelValue.argL m c) (Cert.KernelValue.argI m c)) hp

/-- From memories agreeing on the arguments, the kernel's result array ends at `G` of the arguments and the reference's at
    `Gref` of them; under the precondition the padding distance is a nonnegative real, where the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hpre hagree =>
    ⟨fun c => Cert.KernelValue.Gk m c, Cert.KernelValue.run m ρ,
      (θ_run Cert.ReferenceIdeal.defs _ _).mono
        (fun _ h c => ⟨(h c).1.trans (bridge m m' hpre c (hagree c).1 (hagree c).2.1 (hagree c).2.2.1 (hagree c).2.2.2), (h c).2⟩)
        (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
